-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S2048x1024 : Shape := ⟨2, ![2048, 1024]⟩

abbrev nBuf : Space → Nat
  | .hbm => 22
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x1024x1024, .f32⟩
  | .hbm, ⟨20, _⟩ => ⟨S1x1024, .f32⟩
  | .hbm, ⟨21, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1024x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .f32⟩
  | .local _ .vmem, ⟨24, _⟩ => ⟨S1x1024x1024, .f32⟩
  | .local _ .vmem, ⟨25, _⟩ => ⟨S1x1024, .f32⟩
  | .local _ .vmem, ⟨26, _⟩ => ⟨S1x1024x1024, .f32⟩
  | .local _ .vmem, ⟨27, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  broadcasts_S1x1024_S1024x1024 : S1x1024.Broadcasts S1024x1024
  dot_S512x1024_S1024x1024_S512x1024_1_1_0_0_n_n_wf : DotDims.WF S512x1024 S1024x1024 S512x1024 [1] [1] [0] [0] [] []
  dot_S2048x1024_S2048x1024_S1024x1024_0_0_1_1_n_n_wf : DotDims.WF S2048x1024 S2048x1024 S1024x1024 [0] [0] [1] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x2048x1024.size a
  hwx1_0 : ∀ i : grid1.Coords, EltTy.bits .bf16 = 32 ∨ (Rect.block (s := S4x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .f32 = 32 ∨ (Rect.block (s := S4x1024x1024) S1x1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x2048x1024.size a
  hwx2_0 : ∀ i : grid2.Coords, EltTy.bits .bf16 = 32 ∨ (Rect.block (s := S4x2048x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .f32 = 32 ∨ (Rect.block (s := S4x1024x1024) S1x1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x2048x1024.size a
  hwx2_3 : ∀ i : grid2.Coords, EltTy.bits .f32 = 32 ∨ (Rect.block (s := S4x2048x1024) S1x1024x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttentionSpec.lean ====
/-
  Bilinear (softmax-free) attention over f32[4, 2048, 1024] with four 1024 x 1024 projections, as two
  arrangements of the same sums on the extended reals.

  A projection is  proj x W b (n, s, f) = (sum over k of x(n, s, k) * W(f, k)) + b(f).
  With q, k, v the projections of x by (Wq, bq), (Wk, bk), (Wv, bv) and c the scale 1/8:

  * the kernel's arrangement contracts the sequence axis first:
      kv(n, e, g)  = sum over t of k(n, t, e) * v(n, t, g)
      mix(n, e, f) = sum over g of kv(n, e, g) * Wo(f, g)
      out(n, s, f) = (sum over e of q(n, s, e) * mix(n, e, f)) * c + bo(f)
  * the reference's arrangement forms the score matrix:
      score(n, s, t) = (sum over e of q(n, s, e) * k(n, t, e)) * c
      ctx(n, s, g)   = sum over t of score(n, s, t) * v(n, t, g)
      out(n, s, f)   = (sum over g of ctx(n, s, g) * Wo(f, g)) + bo(f)

  Both are c * (sum over e, t, g of q(n,s,e) * k(n,t,e) * v(n,t,g) * Wo(f,g)) + bo(f) when every entry is a real
  number; on the extended reals the rearrangement needs that (an infinite entry breaks distributivity).
-/
import Idealize.ShloMosaic.PureOps.Ideal
import Idealize.ShloMosaic.Lib.ValueIdx

noncomputable section

namespace Cert.Attention

open Idealize.ShloMosaic Idealize.ShloMosaic.ValueIdx

/-- An f32[4, 2048, 1024] array at the ideal instance. -/
abbrev Arr3 : Type := (⟨3, ![4, 2048, 1024]⟩ : Shape).Idx → EReal
/-- An f32[1024, 1024] array at the ideal instance. -/
abbrev Arr2 : Type := (⟨2, ![1024, 1024]⟩ : Shape).Idx → EReal
/-- An f32[1024] array at the ideal instance. -/
abbrev Arr1 : Type := (⟨1, ![1024]⟩ : Shape).Idx → EReal

/-- The scale 0.125 as the programs spell it. -/
def scale : EReal := Ideal.ofBits .f32 0x3E000000#32

/-- One entry of a linear projection: row (n, s) of x against row f of W, plus the bias at f. -/
def proj (x : Arr3) (W : Arr2) (b : Arr1) (n : Fin 4) (s : Fin 2048) (f : Fin 1024) : EReal :=
  (∑ k : Fin 1024, x (ix3 n s k) * W (ix2 f k)) + b (ix1 f)

/-- Keys against values, contracted over the sequence axis. -/
def kv (x : Arr3) (Wk : Arr2) (bk : Arr1) (Wv : Arr2) (bv : Arr1) (n : Fin 4) (e g : Fin 1024) : EReal :=
  ∑ t : Fin 2048, proj x Wk bk n t e * proj x Wv bv n t g

/-- The key-value matrix carried through the output projection. -/
def mix (x : Arr3) (Wk : Arr2) (bk : Arr1) (Wv : Arr2) (bv : Arr1) (Wo : Arr2) (n : Fin 4) (e f : Fin 1024) : EReal :=
  ∑ g : Fin 1024, kv x Wk bk Wv bv n e g * Wo (ix2 f g)

/-- The kernel's arrangement at coordinates. -/
def kernelAt (x : Arr3) (Wq : Arr2) (bq : Arr1) (Wk : Arr2) (bk : Arr1) (Wv : Arr2) (bv : Arr1) (Wo : Arr2) (bo : Arr1)
    (n : Fin 4) (s : Fin 2048) (f : Fin 1024) : EReal :=
  (∑ e : Fin 1024, proj x Wq bq n s e * mix x Wk bk Wv bv Wo n e f) * scale + bo (ix1 f)

/-- The kernel's arrangement as one array. -/
def kernelOut (x : Arr3) (Wq : Arr2) (bq : Arr1) (Wk : Arr2) (bk : Arr1) (Wv : Arr2) (bv : Arr1) (Wo : Arr2) (bo : Arr1) : Arr3 :=
  fun i => kernelAt x Wq bq Wk bk Wv bv Wo bo (i 0) (i 1) (i 2)

/-- A scaled score: query row s against key row t. -/
def score (x : Arr3) (Wq : Arr2) (bq : Arr1) (Wk : Arr2) (bk : Arr1) (n : Fin 4) (s t : Fin 2048) : EReal :=
  (∑ e : Fin 1024, proj x Wq bq n s e * proj x Wk bk n t e) * scale

/-- Scores against values. -/
def ctx (x : Arr3) (Wq : Arr2) (bq : Arr1) (Wk : Arr2) (bk : Arr1) (Wv : Arr2) (bv : Arr1) (n : Fin 4) (s : Fin 2048) (g : Fin 1024) : EReal :=
  ∑ t : Fin 2048, score x Wq bq Wk bk n s t * proj x Wv bv n t g

/-- The reference's arrangement at coordinates. -/
def referenceAt (x : Arr3) (Wq : Arr2) (bq : Arr1) (Wk : Arr2) (bk : Arr1) (Wv : Arr2) (bv : Arr1) (Wo : Arr2) (bo : Arr1)
    (n : Fin 4) (s : Fin 2048) (f : Fin 1024) : EReal :=
  (∑ g : Fin 1024, ctx x Wq bq Wk bk Wv bv n s g * Wo (ix2 f g)) + bo (ix1 f)

/-- The reference's arrangement as one array. -/
def referenceOut (x : Arr3) (Wq : Arr2) (bq : Arr1) (Wk : Arr2) (bk : Arr1) (Wv : Arr2) (bv : Arr1) (Wo : Arr2) (bo : Arr1) : Arr3 :=
  fun i => referenceAt x Wq bq Wk bk Wv bv Wo bo (i 0) (i 1) (i 2)

theorem kernelOut_ix3 (x : Arr3) (Wq : Arr2) (bq : Arr1) (Wk : Arr2) (bk : Arr1) (Wv : Arr2) (bv : Arr1) (Wo : Arr2) (bo : Arr1)
    (n : Fin 4) (s : Fin 2048) (f : Fin 1024) :
    kernelOut x Wq bq Wk bk Wv bv Wo bo (ix3 n s f) = kernelAt x Wq bq Wk bk Wv bv Wo bo n s f := rfl

theorem referenceOut_ix3 (x : Arr3) (Wq : Arr2) (bq : Arr1) (Wk : Arr2) (bk : Arr1) (Wv : Arr2) (bv : Arr1) (Wo : Arr2) (bo : Arr1)
    (n : Fin 4) (s : Fin 2048) (f : Fin 1024) :
    referenceOut x Wq bq Wk bk Wv bv Wo bo (ix3 n s f) = referenceAt x Wq bq Wk bk Wv bv Wo bo n s f := rfl

end Cert.Attention

end
-- ==== Proof.AttentionLaw.lean ====
/-
  The two arrangements of bilinear attention agree when every entry of every argument is a real number.

  On the reals both arrangements at (n, s, f) are
      c * (sum over e, t, g of q(n,s,e) * k(n,t,e) * v(n,t,g) * Wo(f,g)) + bo(f),
  by distributing products over finite sums and exchanging the order of summation.  On the extended reals
  distributivity fails at an infinite entry, so the law is first proved over the reals, for abstract finite
  index types, and then carried to the extended reals along the coercion, which commutes with finite sums and
  with products of reals.  A projection of real arrays is again real, so the queries, keys and values are real
  and the carried law applies to them.
-/
import proofs.«162765_j59133109731524_2_alg».proof.Proof.AttentionSpec

noncomputable section

namespace Cert.Attention

open Idealize.ShloMosaic Idealize.ShloMosaic.ValueIdx

/-- every entry is a real number -/
def IsReal {ι : Type} (a : ι → EReal) : Prop := ∀ i, ∃ r : ℝ, a i = (r : EReal)

/-- The scale's bit pattern (sign 0, exponent 124, mantissa 0) denotes 2 ^ (124 - 127) = 1 / 8. -/
theorem scale_eq : scale = (((1 : ℝ) / 8 : ℝ) : EReal) := by
  unfold scale
  simp [Ideal.ofBits, Ideal.ieee, -EReal.coe_mul]; norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rearrangement on the reals: contracting the sequence axis t first and scaling last equals forming the
    scaled scores first.  Both sides are c * ∑ e, t, g of Q e * K t e * V t g * W g. -/
theorem real_law {ι τ γ : Type} [Fintype ι] [Fintype τ] [Fintype γ]
    (Q : ι → ℝ) (K : τ → ι → ℝ) (V : τ → γ → ℝ) (W : γ → ℝ) (c : ℝ) :
    (∑ e, Q e * ∑ g, (∑ t, K t e * V t g) * W g) * c
      = ∑ g, (∑ t, ((∑ e, Q e * K t e) * c) * V t g) * W g := by
  have hL : (∑ e, Q e * ∑ g, (∑ t, K t e * V t g) * W g) * c
      = ∑ g, ∑ t, ∑ e, Q e * K t e * V t g * W g * c := by
    simp only [Finset.mul_sum, Finset.sum_mul]
    rw [Finset.sum_comm]
    refine Finset.sum_congr rfl fun g _ => ?_
    rw [Finset.sum_comm]
    refine Finset.sum_congr rfl fun t _ => Finset.sum_congr rfl fun e _ => ?_
    ring
  have hR : (∑ g, (∑ t, ((∑ e, Q e * K t e) * c) * V t g) * W g)
      = ∑ g, ∑ t, ∑ e, Q e * K t e * V t g * W g * c := by
    simp only [Finset.sum_mul]
    refine Finset.sum_congr rfl fun g _ => Finset.sum_congr rfl fun t _ => Finset.sum_congr rfl fun e _ => ?_
    ring
  rw [hL, hR]

/-- The rearrangement carried to the extended reals, for entries that are coercions of reals.  The bias b may be
    any extended real: it is added last on both sides. -/
theorem ereal_law {ι τ γ : Type} [Fintype ι] [Fintype τ] [Fintype γ]
    (Q : ι → ℝ) (K : τ → ι → ℝ) (V : τ → γ → ℝ) (W : γ → ℝ) (c : ℝ) (b : EReal) :
    (∑ e, (Q e : EReal) * ∑ g, (∑ t, (K t e : EReal) * (V t g : EReal)) * (W g : EReal)) * (c : EReal) + b
      = (∑ g, (∑ t, ((∑ e, (Q e : EReal) * (K t e : EReal)) * (c : EReal)) * (V t g : EReal)) * (W g : EReal)) + b := by
  have h := congrArg (fun r : ℝ => (r : EReal)) (real_law Q K V W c)
  simp only [EReal.coe_mul, coe_sum] at h
  rw [h]

/-- A projection of real arrays is real: a finite sum of products of reals plus a real. -/
theorem proj_isReal (x : Arr3) (W : Arr2) (b : Arr1) (hx : IsReal x) (hW : IsReal W) (hb : IsReal b)
    (n : Fin 4) (s : Fin 2048) (f : Fin 1024) : ∃ r : ℝ, proj x W b n s f = (r : EReal) := by
  choose x' hx' using hx
  choose W' hW' using hW
  choose b' hb' using hb
  refine ⟨(∑ k : Fin 1024, x' (ix3 n s k) * W' (ix2 f k)) + b' (ix1 f), ?_⟩
  unfold proj
  simp only [hx', hW', hb', EReal.coe_add, EReal.coe_mul, coe_sum]

theorem kernelOut_eq_referenceOut (x : Arr3) (Wq : Arr2) (bq : Arr1) (Wk : Arr2) (bk : Arr1) (Wv : Arr2) (bv : Arr1) (Wo : Arr2) (bo : Arr1)
    (hx : IsReal x) (hWq : IsReal Wq) (hbq : IsReal bq) (hWk : IsReal Wk) (hbk : IsReal bk) (hWv : IsReal Wv) (hbv : IsReal bv) (hWo : IsReal Wo) (hbo : IsReal bo) :
    kernelOut x Wq bq Wk bk Wv bv Wo bo = referenceOut x Wq bq Wk bk Wv bv Wo bo := by
  -- the queries, keys and values are real, and so is every entry of the output weights
  choose q hq using fun n s e => proj_isReal x Wq bq hx hWq hbq n s e
  choose k hk using fun n t e => proj_isReal x Wk bk hx hWk hbk n t e
  choose v hv using fun n t g => proj_isReal x Wv bv hx hWv hbv n t g
  choose wo hwo using hWo
  funext i
  obtain ⟨n, s, f, rfl⟩ : ∃ (n : Fin 4) (s : Fin 2048) (f : Fin 1024), i = ix3 n s f := ⟨i 0, i 1, i 2, eq_ix3 i⟩
  rw [kernelOut_ix3, referenceOut_ix3]
  unfold kernelAt mix kv referenceAt ctx score
  simp only [hq, hk, hv, hwo, scale_eq]
  exact ereal_law (fun e => q n s e) (fun t e => k n t e) (fun t g => v n t g) (fun g => wo (ix2 f g)) (1 / 8) (bo (ix1 f))

end Cert.Attention

end
-- ==== Proof.FiniteInputs.lean ====
/-
  The finiteness precondition, read back: when it holds, every entry of each of the nine arguments is a real number.

  The predicate computes, for each argument a, whether |a| < +inf at every index (a reduction by "and" over all
  axes, started at 1), and joins the nine answers by "and".  A conjunction of one-bit words that is 1 has every
  conjunct 1; a reduction by "and" over all axes that is 1 met a 1 at every index; and on the extended reals
  max x (-x) < +inf excludes both infinities, since max ⊤ _ = ⊤ and max ⊥ (-⊥) = ⊤, so x is the coercion of a real.
-/
import proofs.«162765_j59133109731524_2_alg».proof.Proof.AttentionLaw
import proofs.«162765_j59133109731524_2_alg».proof.Pre_finite_inputs
import proofs.«162765_j59133109731524_2_alg».proof.Proof.Gen.Pre_finite_inputs
import Idealize.ShloMosaic.Lib.ReduceAll

noncomputable section

namespace Cert.Attention

open Idealize.ShloMosaic Idealize.ShloMosaic.ValueIdx

/-- The word 0x7F800000 (exponent all ones, mantissa zero, sign clear) denotes +inf. -/
theorem inf_eq : Ideal.ofBits .f32 0x7F800000#32 = (⊤ : EReal) := by
  simp [Ideal.ofBits, Ideal.ieee]

/-- An extended real whose absolute value max x (-x) is strictly below +inf is a real number. -/
theorem real_of_abs_lt_inf (x : EReal)
    (h : Ideal.cmp .olt (max x (-x)) (Ideal.ofBits .f32 0x7F800000#32) = 1#1) : ∃ r : ℝ, x = (r : EReal) := by
  rw [inf_eq] at h
  induction x with
  | bot => simp [Ideal.cmp] at h
  | top => simp [Ideal.cmp] at h
  | coe r => exact ⟨r, rfl⟩

/-- The result of a reduction over all axes has one index only. -/
instance : Subsingleton Cert.Pre_finite_inputs.S_.Idx := ⟨fun a b => funext fun d => d.elim0⟩

/-- One argument's test: if the comparison |a| < +inf holds at every index, every entry of a is real. -/
theorem isReal_of_all_lt {s : Shape} (hb : Cert.Pre_finite_inputs.S_.BroadcastsInDim s (![] : Fin 0 → Fin s.rank))
    (a : s.Idx → EReal)
    (h : ∀ i, cmpf (F := Ideal) .olt (Host.absf (F := Ideal) (φ := .f32) a)
        (broadcastInDim s ![] hb (constant (F := Ideal) Cert.Pre_finite_inputs.S_ .f32 0x7F800000#32)) i = 1#1) :
    IsReal a :=
  fun i => real_of_abs_lt_inf (a i) (h i)

theorem isReal_of_pre [Cert.Pre_finite_inputs.Facts]
    (a0 : Arr3) (a1 : Arr2) (a2 : Arr1) (a3 : Arr2) (a4 : Arr1) (a5 : Arr2) (a6 : Arr1) (a7 : Arr2) (a8 : Arr1)
    (h : Cert.Pre_finite_inputs.fn (F := Ideal) a0 a1 a2 a3 a4 a5 a6 a7 a8 = fun _ => 1#1) :
    IsReal a0 ∧ IsReal a1 ∧ IsReal a2 ∧ IsReal a3 ∧ IsReal a4 ∧ IsReal a5 ∧ IsReal a6 ∧ IsReal a7 ∧ IsReal a8 := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨isReal_of_all_lt _ a0 (Host.reduce_andi_all _ _ _ _ _ e0),
    isReal_of_all_lt _ a1 (Host.reduce_andi_all _ _ _ _ _ e1),
    isReal_of_all_lt _ a2 (Host.reduce_andi_all _ _ _ _ _ e2),
    isReal_of_all_lt _ a3 (Host.reduce_andi_all _ _ _ _ _ e3),
    isReal_of_all_lt _ a4 (Host.reduce_andi_all _ _ _ _ _ e4),
    isReal_of_all_lt _ a5 (Host.reduce_andi_all _ _ _ _ _ e5),
    isReal_of_all_lt _ a6 (Host.reduce_andi_all _ _ _ _ _ e6),
    isReal_of_all_lt _ a7 (Host.reduce_andi_all _ _ _ _ _ e7),
    isReal_of_all_lt _ a8 (Host.reduce_andi_all _ _ _ _ _ e8)⟩

end Cert.Attention

end
-- ==== Proof.ReferenceValue.lean ====
/-
  The reference program's value is the reference arrangement of the bilinear attention sums.

  Each stage of the reference is read at explicit coordinates: the three projections at (n, s, f), the scaled score
  matrix at (n, s, t), the context at (n, s, g), and finally the output projection with its bias at (n, s, f). A dot
  product's operand indices are the coordinate triples (or pairs) one expects; a broadcast of a bias reads the bias
  at the last coordinate; the scale is the same 32-bit word in the program and in the specification and is never
  evaluated.
-/
import proofs.«162765_j59133109731524_2_alg».proof.Proof.Gen.ReferenceIdeal.Read
import proofs.«162765_j59133109731524_2_alg».proof.Proof.AttentionSpec

noncomputable section

namespace Cert.ReferenceIdeal.RefValue

open Idealize.ShloMosaic Idealize.ShloMosaic.ValueIdx Cert.ReferenceIdeal Cert.Attention

/-! ## Index equations: the operand indices of each stage at coordinates -/

/-- Left operand of the query projection: row (n, s), column k. -/
theorem lidx_v0 (n : Fin 4) (s : Fin 2048) (f k : Fin 1024) :
    Read.lidx_main_v0 (ix3 n s f) k = ix3 n s k :=
  funext fun a => Fin.ext (by match a with | ⟨0, _⟩ => rfl | ⟨1, _⟩ => rfl | ⟨2, _⟩ => rfl)

/-- Right operand of the query projection: row f, column k of the weight. -/
theorem ridx_v0 (n : Fin 4) (s : Fin 2048) (f k : Fin 1024) :
    Read.ridx_main_v0 (ix3 n s f) k = ix2 f k :=
  funext fun a => Fin.ext (by match a with | ⟨0, _⟩ => rfl | ⟨1, _⟩ => rfl)

/-- The query bias broadcast to the full array reads the bias at the last coordinate. -/
theorem idx_v2 (n : Fin 4) (s : Fin 2048) (f : Fin 1024) :
    Read.idx_main_v1 (Read.idx_main_v2 (ix3 n s f)) = ix1 f :=
  funext fun a => Fin.ext (by match a with | ⟨0, _⟩ => rfl)

/-- Left operand of the key projection. -/
theorem lidx_v4 (n : Fin 4) (s : Fin 2048) (f k : Fin 1024) :
    Read.lidx_main_v4 (ix3 n s f) k = ix3 n s k :=
  funext fun a => Fin.ext (by match a with | ⟨0, _⟩ => rfl | ⟨1, _⟩ => rfl | ⟨2, _⟩ => rfl)

/-- Right operand of the key projection. -/
theorem ridx_v4 (n : Fin 4) (s : Fin 2048) (f k : Fin 1024) :
    Read.ridx_main_v4 (ix3 n s f) k = ix2 f k :=
  funext fun a => Fin.ext (by match a with | ⟨0, _⟩ => rfl | ⟨1, _⟩ => rfl)

/-- The key bias at the last coordinate. -/
theorem idx_v6 (n : Fin 4) (s : Fin 2048) (f : Fin 1024) :
    Read.idx_main_v5 (Read.idx_main_v6 (ix3 n s f)) = ix1 f :=
  funext fun a => Fin.ext (by match a with | ⟨0, _⟩ => rfl)

/-- Left operand of the value projection. -/
theorem lidx_v8 (n : Fin 4) (s : Fin 2048) (f k : Fin 1024) :
    Read.lidx_main_v8 (ix3 n s f) k = ix3 n s k :=
  funext fun a => Fin.ext (by match a with | ⟨0, _⟩ => rfl | ⟨1, _⟩ => rfl | ⟨2, _⟩ => rfl)

/-- Right operand of the value projection. -/
theorem ridx_v8 (n : Fin 4) (s : Fin 2048) (f k : Fin 1024) :
    Read.ridx_main_v8 (ix3 n s f) k = ix2 f k :=
  funext fun a => Fin.ext (by match a with | ⟨0, _⟩ => rfl | ⟨1, _⟩ => rfl)

/-- The value bias at the last coordinate. -/
theorem idx_v10 (n : Fin 4) (s : Fin 2048) (f : Fin 1024) :
    Read.idx_main_v9 (Read.idx_main_v10 (ix3 n s f)) = ix1 f :=
  funext fun a => Fin.ext (by match a with | ⟨0, _⟩ => rfl)

/-- Left operand of the score product: query row (n, s), feature e. -/
theorem lidx_v12 (n : Fin 4) (s t : Fin 2048) (e : Fin 1024) :
    Read.lidx_main_v12 (ix3 n s t) e = ix3 n s e :=
  funext fun a => Fin.ext (by match a with | ⟨0, _⟩ => rfl | ⟨1, _⟩ => rfl | ⟨2, _⟩ => rfl)

/-- Right operand of the score product: key row (n, t), feature e. -/
theorem ridx_v12 (n : Fin 4) (s t : Fin 2048) (e : Fin 1024) :
    Read.ridx_main_v12 (ix3 n s t) e = ix3 n t e :=
  funext fun a => Fin.ext (by match a with | ⟨0, _⟩ => rfl | ⟨1, _⟩ => rfl | ⟨2, _⟩ => rfl)

/-- Left operand of the context product: score (n, s, t). -/
theorem lidx_v15 (n : Fin 4) (s t : Fin 2048) (g : Fin 1024) :
    Read.lidx_main_v15 (ix3 n s g) t = ix3 n s t :=
  funext fun a => Fin.ext (by match a with | ⟨0, _⟩ => rfl | ⟨1, _⟩ => rfl | ⟨2, _⟩ => rfl)

/-- Right operand of the context product: value row (n, t), feature g. -/
theorem ridx_v15 (n : Fin 4) (s t : Fin 2048) (g : Fin 1024) :
    Read.ridx_main_v15 (ix3 n s g) t = ix3 n t g :=
  funext fun a => Fin.ext (by match a with | ⟨0, _⟩ => rfl | ⟨1, _⟩ => rfl | ⟨2, _⟩ => rfl)

/-- Left operand of the output projection: context (n, s, g). -/
theorem lidx_v16 (n : Fin 4) (s : Fin 2048) (f g : Fin 1024) :
    Read.lidx_main_v16 (ix3 n s f) g = ix3 n s g :=
  funext fun a => Fin.ext (by match a with | ⟨0, _⟩ => rfl | ⟨1, _⟩ => rfl | ⟨2, _⟩ => rfl)

/-- Right operand of the output projection: row f, column g of the weight. -/
theorem ridx_v16 (n : Fin 4) (s : Fin 2048) (f g : Fin 1024) :
    Read.ridx_main_v16 (ix3 n s f) g = ix2 f g :=
  funext fun a => Fin.ext (by match a with | ⟨0, _⟩ => rfl | ⟨1, _⟩ => rfl)

/-- The output bias at the last coordinate. -/
theorem idx_v18 (n : Fin 4) (s : Fin 2048) (f : Fin 1024) :
    Read.idx_main_v17 (Read.idx_main_v18 (ix3 n s f)) = ix1 f :=
  funext fun a => Fin.ext (by match a with | ⟨0, _⟩ => rfl)

/-! ## The three projections -/

/-- The query projection at coordinates. -/
theorem v3_at (x0 : Arr3) (x1 : Arr2) (x2 : Arr1) (n : Fin 4) (s : Fin 2048) (f : Fin 1024) :
    Read.val_main_v3 (F := Ideal) x0 x1 x2 (ix3 n s f) = proj x0 x1 x2 n s f := by
  rw [Read.val_main_v3_apply, Read.val_main_v0_apply, Read.val_main_v2_apply, Read.val_main_v1_apply]
  unfold proj
  simp only [Ideal.addf_def]
  refine congrArg₂ (· + ·) (Finset.sum_congr rfl fun k _ => ?_) ?_
  · exact congrArg₂ (· * ·) (congrArg x0 (lidx_v0 n s f k)) (congrArg x1 (ridx_v0 n s f k))
  · exact congrArg x2 (idx_v2 n s f)

/-- The key projection at coordinates. -/
theorem v7_at (x0 : Arr3) (x3 : Arr2) (x4 : Arr1) (n : Fin 4) (s : Fin 2048) (f : Fin 1024) :
    Read.val_main_v7 (F := Ideal) x0 x3 x4 (ix3 n s f) = proj x0 x3 x4 n s f := by
  rw [Read.val_main_v7_apply, Read.val_main_v4_apply, Read.val_main_v6_apply, Read.val_main_v5_apply]
  unfold proj
  simp only [Ideal.addf_def]
  refine congrArg₂ (· + ·) (Finset.sum_congr rfl fun k _ => ?_) ?_
  · exact congrArg₂ (· * ·) (congrArg x0 (lidx_v4 n s f k)) (congrArg x3 (ridx_v4 n s f k))
  · exact congrArg x4 (idx_v6 n s f)

/-- The value projection at coordinates. -/
theorem v11_at (x0 : Arr3) (x5 : Arr2) (x6 : Arr1) (n : Fin 4) (s : Fin 2048) (f : Fin 1024) :
    Read.val_main_v11 (F := Ideal) x0 x5 x6 (ix3 n s f) = proj x0 x5 x6 n s f := by
  rw [Read.val_main_v11_apply, Read.val_main_v8_apply, Read.val_main_v10_apply, Read.val_main_v9_apply]
  unfold proj
  simp only [Ideal.addf_def]
  refine congrArg₂ (· + ·) (Finset.sum_congr rfl fun k _ => ?_) ?_
  · exact congrArg₂ (· * ·) (congrArg x0 (lidx_v8 n s f k)) (congrArg x5 (ridx_v8 n s f k))
  · exact congrArg x6 (idx_v10 n s f)

/-! ## Scores, context, output -/

/-- The scaled score matrix at coordinates. -/
theorem v14_at (x0 : Arr3) (x1 : Arr2) (x2 : Arr1) (x3 : Arr2) (x4 : Arr1) (n : Fin 4) (s t : Fin 2048) :
    Read.val_main_v14 (F := Ideal) x0 x1 x2 x3 x4 (ix3 n s t) = score x0 x1 x2 x3 x4 n s t := by
  rw [Read.val_main_v14_apply, Read.val_main_v12_apply, Read.val_main_v13_apply, Read.val_main_cst_apply]
  unfold score scale
  simp only [Ideal.mulf_def, Ideal.ofBits_def]
  refine congrArg (· * Ideal.ofBits .f32 0x3E000000#32) (Finset.sum_congr rfl fun e _ => ?_)
  rw [lidx_v12, ridx_v12, v3_at, v7_at]

/-- The context at coordinates. -/
theorem v15_at (x0 : Arr3) (x1 : Arr2) (x2 : Arr1) (x3 : Arr2) (x4 : Arr1) (x5 : Arr2) (x6 : Arr1)
    (n : Fin 4) (s : Fin 2048) (g : Fin 1024) :
    Read.val_main_v15 (F := Ideal) x0 x1 x2 x3 x4 x5 x6 (ix3 n s g) = ctx x0 x1 x2 x3 x4 x5 x6 n s g := by
  rw [Read.val_main_v15_apply]
  unfold ctx
  refine Finset.sum_congr rfl fun t _ => ?_
  rw [lidx_v15, ridx_v15, v14_at, v11_at]

/-- The reference's output at coordinates. -/
theorem v19_at (x0 : Arr3) (x1 : Arr2) (x2 : Arr1) (x3 : Arr2) (x4 : Arr1) (x5 : Arr2) (x6 : Arr1) (x7 : Arr2) (x8 : Arr1)
    (n : Fin 4) (s : Fin 2048) (f : Fin 1024) :
    Read.val_main_v19 (F := Ideal) x0 x1 x2 x3 x4 x5 x6 x7 x8 (ix3 n s f)
      = referenceAt x0 x1 x2 x3 x4 x5 x6 x7 x8 n s f := by
  rw [Read.val_main_v19_apply, Read.val_main_v16_apply, Read.val_main_v18_apply, Read.val_main_v17_apply]
  unfold referenceAt
  simp only [Ideal.addf_def]
  refine congrArg₂ (· + ·) (Finset.sum_congr rfl fun g _ => ?_) ?_
  · rw [lidx_v16, ridx_v16, v15_at]
  · exact congrArg x8 (idx_v18 n s f)

/-- The reference program's value is the reference arrangement. -/
theorem val_eq_referenceOut (x0 : Cert.Attention.Arr3) (x1 : Cert.Attention.Arr2) (x2 : Cert.Attention.Arr1)
    (x3 : Cert.Attention.Arr2) (x4 : Cert.Attention.Arr1) (x5 : Cert.Attention.Arr2) (x6 : Cert.Attention.Arr1)
    (x7 : Cert.Attention.Arr2) (x8 : Cert.Attention.Arr1) :
    Cert.ReferenceIdeal.Read.val_main_v19 (F := Ideal) x0 x1 x2 x3 x4 x5 x6 x7 x8
      = Cert.Attention.referenceOut x0 x1 x2 x3 x4 x5 x6 x7 x8 := by
  funext i
  obtain ⟨n, s, f, rfl⟩ : ∃ n s f, i = ix3 n s f := ⟨i 0, i 1, i 2, eq_ix3 i⟩
  rw [referenceOut_ix3, v19_at]

end Cert.ReferenceIdeal.RefValue

end
-- ==== Proof.KernelRun.lean ====
/-
  The idealized kernel program's run with its result named: every weakly fair execution of the program terminates
  without a fault, the result buffer ends at the last region's exit contents, and the nine arguments end as launched.
  The exit contents are the fold of the program's segments from the launch memory: a stretch of host reshapes
  applies them, a region replaces each of its arrays by what its write-backs leave and keeps every other buffer.
  The frame statement keeps only the arguments; the result buffer is one more unscoped buffer read off the same
  final thread state.
-/
import proofs.«162765_j59133109731524_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the program's six segments, the last thread state read against the final state: the result buffer
    and each argument are unscoped buffers, so each ends at the exit contents, and an argument's exit contents are
    its launch contents. -/
theorem run_named : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.KernelProducts.lean ====
/-
  The kernel's four matrix products read at an index, at the ideal instance: into a zero accumulator each is the plain
  sum over its one contracted axis.
    rows against rows      out(p, q) = sum over k of l(p, k) * r(q, k)     (a projection x * W^T)
    columns against columns out(e, g) = sum over t of l(t, e) * r(t, g)     (K^T * V over the sequence axis)
    rows against columns   out(s, f) = sum over e of l(s, e) * r(e, f)     (Q * M)
-/
import proofs.«162765_j59133109731524_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

theorem proj_rows_at_lhs_free (i : S512x1024.Idx) (k : dot_S512x1024_S1024x1024_S512x1024_1_1_0_0_n_n.contr.Idx) : (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem proj_rows_at_rhs_free (i : S512x1024.Idx) (k : dot_S512x1024_S1024x1024_S512x1024_1_1_0_0_n_n.contr.Idx) : (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- A block of 512 rows against the rows of a 1024 x 1024 matrix: entry (p, q) is row p of the block against row q of the matrix. -/
theorem proj_rows_at {φ₁ φ₂ : FTy} (l : FVec Ideal S512x1024 φ₁) (r : FVec Ideal S1024x1024 φ₂) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  refine (Ideal.matmul_constant_zero_apply dot_S512x1024_S1024x1024_S512x1024_1_1_0_0_n_n none l r (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact proj_rows_at_lhs_free _ _
    | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact proj_rows_at_rhs_free _ _
    | ⟨1, _⟩ => exact (dot_S512x1024_S1024x1024_S512x1024_1_1_0_0_n_n.rhsIdx_val_of_single rfl _ _).trans hk)
  rw [el, er]

theorem cols_cols_at_lhs_free (i : S1024x1024.Idx) (k : dot_S2048x1024_S2048x1024_S1024x1024_0_0_1_1_n_n.contr.Idx) : (dot_S2048x1024_S2048x1024_S1024x1024_0_0_1_1_n_n.lhsIdx i k 1).val = (i 0).val := by
  unfold DotDims.lhsIdx
  rw [dif_neg (show ¬(1 : Fin S2048x1024.rank) ∈ dot_S2048x1024_S2048x1024_S1024x1024_0_0_1_1_n_n.lhsBatch by decide), dif_pos (show (1 : Fin S2048x1024.rank) ∈ dot_S2048x1024_S2048x1024_S1024x1024_0_0_1_1_n_n.lhsNonContracting by decide)]
  rfl
theorem cols_cols_at_rhs_free (i : S1024x1024.Idx) (k : dot_S2048x1024_S2048x1024_S1024x1024_0_0_1_1_n_n.contr.Idx) : (dot_S2048x1024_S2048x1024_S1024x1024_0_0_1_1_n_n.rhsIdx i k 1).val = (i 1).val := by
  unfold DotDims.rhsIdx
  rw [dif_neg (show ¬(1 : Fin S2048x1024.rank) ∈ dot_S2048x1024_S2048x1024_S1024x1024_0_0_1_1_n_n.rhsBatch by decide), dif_pos (show (1 : Fin S2048x1024.rank) ∈ dot_S2048x1024_S2048x1024_S1024x1024_0_0_1_1_n_n.rhsNonContracting by decide)]
  rfl
/-- Two 2048 x 1024 matrices contracted over their rows: entry (e, g) is column e of the first against column g of the second. -/
theorem cols_cols_at {φ₁ φ₂ : FTy} (l : FVec Ideal S2048x1024 φ₁) (r : FVec Ideal S2048x1024 φ₂) (p : Fin 1024) (q : Fin 1024) :
    matmul dot_S2048x1024_S2048x1024_S1024x1024_0_0_1_1_n_n none l r (constant (F := Ideal) S1024x1024 .f32 0x00000000#32) (ix2 p q)
      = ∑ k : Fin 2048, l (ix2 k p) * r (ix2 k q) := by
  refine (Ideal.matmul_constant_zero_apply dot_S2048x1024_S2048x1024_S1024x1024_0_0_1_1_n_n none l r (ix2 p q)).trans ?_
  rw [← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 p q) ((contrEquiv1 dot_S2048x1024_S2048x1024_S1024x1024_0_0_1_1_n_n 2048 rfl rfl).symm k) = ix2 k p := funext fun a => Fin.ext (by
    match a with
    | ⟨0, _⟩ => exact (dot_S2048x1024_S2048x1024_S1024x1024_0_0_1_1_n_n.lhsIdx_val_of_single rfl _ _).trans hk
    | ⟨1, _⟩ => exact cols_cols_at_lhs_free _ _)
  have er : dot_S2048x1024_S2048x1024_S1024x1024_0_0_1_1_n_n.rhsIdx (ix2 p q) ((contrEquiv1 dot_S2048x1024_S2048x1024_S1024x1024_0_0_1_1_n_n 2048 rfl rfl).symm k) = ix2 k q := funext fun a => Fin.ext (by
    match a with
    | ⟨0, _⟩ => exact (dot_S2048x1024_S2048x1024_S1024x1024_0_0_1_1_n_n.rhsIdx_val_of_single rfl _ _).trans hk
    | ⟨1, _⟩ => exact cols_cols_at_rhs_free _ _)
  rw [el, er]

theorem rows_rows_at_lhs_free (i : S1024x1024.Idx) (k : dot_S1024x1024_S1024x1024_S1024x1024_1_1_0_0_n_n.contr.Idx) : (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem rows_rows_at_rhs_free (i : S1024x1024.Idx) (k : dot_S1024x1024_S1024x1024_S1024x1024_1_1_0_0_n_n.contr.Idx) : (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Two 1024 x 1024 matrices contracted over their columns: entry (e, f) is row e of the first against row f of the second. -/
theorem rows_rows_at {φ₁ φ₂ : FTy} (l : FVec Ideal S1024x1024 φ₁) (r : FVec Ideal S1024x1024 φ₂) (p : Fin 1024) (q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  refine (Ideal.matmul_constant_zero_apply dot_S1024x1024_S1024x1024_S1024x1024_1_1_0_0_n_n none l r (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact rows_rows_at_lhs_free _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rows_rows_at_rhs_free _ _
    | ⟨1, _⟩ => exact (dot_S1024x1024_S1024x1024_S1024x1024_1_1_0_0_n_n.rhsIdx_val_of_single rfl _ _).trans hk)
  rw [el, er]

theorem rows_cols_at_lhs_free (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem rows_cols_at_rhs_free (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- The plain product of two 1024 x 1024 matrices: entry (s, f) is row s of the first against column f of the second. -/
theorem rows_cols_at {φ₁ φ₂ : FTy} (l : FVec Ideal S1024x1024 φ₁) (r : FVec Ideal S1024x1024 φ₂) (p : Fin 1024) (q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  refine (Ideal.matmul_constant_zero_apply dot_S1024x1024_S1024x1024_S1024x1024_1_0_0_1_n_n none l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact rows_cols_at_lhs_free _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact rows_cols_at_rhs_free _ _)
  rw [el, er]

end Cert.KernelIdeal.Products

end
-- ==== Proof.RegionProject.lean ====
/-
  The first region: the three projections of the flattened input, 512 rows per grid point.
  Entry (r, f) of each output array is row r of the flattened input against row f of that projection's weight matrix,
  plus the bias at f; the grid's point t writes rows 512 t ... 512 t + 511, and the sixteen points cover all 8192 rows.
-/
import proofs.«162765_j59133109731524_2_alg».proof.Proof.Gen.KernelIdeal.Frame
import proofs.«162765_j59133109731524_2_alg».proof.Proof.KernelProducts
import Idealize.ShloMosaic.Lib.Pipeline.Value
import Idealize.ShloMosaic.Lib.ValueLayout

set_option maxRecDepth 16384

noncomputable section

namespace Cert.KernelIdeal.RegionProject

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One projection payload at (p, q): row p of the row block against row q of the weights, plus the bias at q. -/
theorem pay_at (x0 : Vec Ideal S512x1024 .f32) (w : Vec Ideal S1024x1024 .f32) (b : Vec Ideal S1x1024 .f32) (p : Fin 512) (q : Fin 1024) :
    k0_pay2 x0 w b (ix2 p q) = (∑ k : Fin 1024, x0 (ix2 p k) * w (ix2 q k)) + b (ix2 (0 : Fin 1) q) := by
  unfold k0_pay2 k0_pay1
  show (matmul dot_S512x1024_S1024x1024_S512x1024_1_1_0_0_n_n none (truncf .bf16 (shapeCast S512x1024 x0 shapeCasts_S512x1024_S512x1024) bitsLt_bf16_f32) (truncf .bf16 w bitsLt_bf16_f32) (constant (F := Ideal) S512x1024 .f32 0x00000000#32)) (ix2 p q)
      + broadcastTo S512x1024 (shapeCast S1x1024 b shapeCasts_S1x1024_S1x1024) broadcasts_S1x1024_S512x1024 (ix2 p q) = _
  rw [Products.proj_rows_at, broadcastTo_1b_ab_apply, shapeCast_self, shapeCast_self]
  rfl

/-- One entry of a flat projection: row r of X against row f of W, plus B at f. -/
def projAt (X : S8192x1024.Idx → EReal) (W : S1024x1024.Idx → EReal) (B : S1x1024.Idx → EReal) (r : Fin 8192) (f : Fin 1024) : EReal :=
  (∑ k : Fin 1024, X (ix2 r k) * W (ix2 f k)) + B (ix2 (0 : Fin 1) f)

/-- A flat projection as one function of its three arrays. -/
def projFlat (X : S8192x1024.Idx → EReal) (W : S1024x1024.Idx → EReal) (B : S1x1024.Idx → EReal) : S8192x1024.Idx → EReal :=
  fun i => projAt X W B (⟨(i 0).val, (i 0).isLt⟩ : Fin 8192) (⟨(i 1).val, (i 1).isLt⟩ : Fin 1024)

/-- The printed index map of the input rows over the grid: point t reads row block t. -/
theorem idx_w0 : ∀ t : Fin cfg0.N, win0_0.index t (0 : Fin 2) = t.val ∧ win0_0.index t (1 : Fin 2) = 0 :=
  (by decide +kernel : ∀ t : Fin grid0.N, _)

/-- The input window's block at point t is rows 512 t ... 512 t + 511 of the flattened input. -/
theorem xblk_at (c : Dev nD) (t : Fin cfg0.N) (p : Fin 512) (k : Fin 1024) (r : Fin 8192) (hr : r.val = 512 * t.val + p.val) :
    (iblk0 V c 0 t : Vec Ideal S512x1024 .f32) (ix2 p k) = V c main_v3 (ix2 r k) := by
  have e := idx_w0 t
  unfold iblk0
  rw [View.read_apply]
  show V c main_v3 _ = V c main_v3 _
  refine congrArg (V c main_v3) (funext fun a => Fin.ext ?_)
  match a with
  | ⟨0, _⟩ => show win0_0.index t (0 : Fin 2) * 512 + 1 * p.val = r.val; rw [e.1, hr]; omega
  | ⟨1, _⟩ => show win0_0.index t (1 : Fin 2) * 1024 + 1 * k.val = k.val; rw [e.2]; omega

/-! ### Output window 7: the queries -/

theorem idx_w1 : ∀ t : Fin cfg0.N, win0_1.index t (0 : Fin 2) = 0 ∧ win0_1.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w7 : ∀ t : Fin cfg0.N, win0_7.index t (0 : Fin 2) = t.val ∧ win0_7.index t (1 : Fin 2) = 0 :=
  (by decide +kernel : ∀ t : Fin grid0.N, _)

theorem pay7_at (x0 : Vec Ideal S512x1024 .f32) (w : Vec Ideal S1024x1024 .f32) (b : Vec Ideal S1x1024 .f32) (p : Fin 512) (q : Fin 1024) :
    k0_pay2 x0 w b (ix2 p q) = (∑ k : Fin 1024, x0 (ix2 p k) * w (ix2 q k)) + b (ix2 (0 : Fin 1) q) :=
  pay_at x0 w b p q

/-- The weight window's one block is the whole matrix. -/
theorem wblk7_at (c : Dev nD) (t : Fin cfg0.N) (q k : Fin 1024) :
    (iblk0 V c 1 t : Vec Ideal S1024x1024 .f32) (ix2 q k) = V c main_arg1 (ix2 q k) := by
  have e := idx_w1 t
  unfold iblk0
  rw [View.read_apply]
  show V c main_arg1 _ = V c main_arg1 _
  refine congrArg (V c main_arg1) (funext fun a => Fin.ext ?_)
  match a with
  | ⟨0, _⟩ => show win0_1.index t (0 : Fin 2) * 1024 + 1 * q.val = q.val; rw [e.1]; omega
  | ⟨1, _⟩ => show win0_1.index t (1 : Fin 2) * 1024 + 1 * k.val = k.val; rw [e.2]; omega

/-- The bias window's one block is the whole row. -/
theorem bblk7_at (c : Dev nD) (t : Fin cfg0.N) (q : Fin 1024) :
    (iblk0 V c 4 t : Vec Ideal S1x1024 .f32) (ix2 (0 : Fin 1) q) = V c main_v0 (ix2 (0 : Fin 1) q) := by
  have e := idx_w4 t
  unfold iblk0
  rw [View.read_apply]
  show V c main_v0 _ = V c main_v0 _
  refine congrArg (V c main_v0) (funext fun a => Fin.ext ?_)
  match a with
  | ⟨0, _⟩ => show win0_4.index t (0 : Fin 2) * 1 + 1 * 0 = 0; rw [e.1]
  | ⟨1, _⟩ => show win0_4.index t (1 : Fin 2) * 1024 + 1 * q.val = q.val; rw [e.2]; omega

/-- What point t writes back is block t of the projection of the entry contents. -/
theorem flushed7_eq (c : Dev nD) (t : Fin cfg0.N) :
    (dat0 V c).flushed 7 t = ((cfg0.win 7).blk t).view.read (Elt Ideal) (projFlat (V c main_v3) (V c main_arg1) (V c main_v0)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  have ht : t.val < 16 := by have h1 := t.isLt; have h2 : cfg0.N = 16 := N_0; omega
  have e := idx_w7 t
  funext j
  obtain ⟨p, q, rfl⟩ : ∃ (p : Fin 512) (q : Fin 1024), j = ix2 p q := ⟨j 0, j 1, eq_ix2 j⟩
  have hlt : 512 * t.val + p.val < 8192 := by have := p.isLt; omega
  have hemb : ((cfg0.win 7).blk t).view.emb (ix2 p q) = (ix2 (⟨512 * t.val + p.val, hlt⟩ : Fin 8192) q : S8192x1024.Idx) :=
    funext fun a => Fin.ext (by
      match a with
      | ⟨0, _⟩ => show win0_7.index t (0 : Fin 2) * 512 + 1 * p.val = 512 * t.val + p.val; rw [e.1]; omega
      | ⟨1, _⟩ => show win0_7.index t (1 : Fin 2) * 1024 + 1 * q.val = q.val; rw [e.2]; omega)
  show k0_pay2 (iblk0 V c 0 t) (iblk0 V c 1 t) (iblk0 V c 4 t) (ix2 p q) = projFlat (V c main_v3) (V c main_arg1) (V c main_v0) (((cfg0.win 7).blk t).view.emb (ix2 p q))
  rw [hemb]
  refine (pay7_at _ _ _ p q).trans ?_
  show _ = projAt (V c main_v3) (V c main_arg1) (V c main_v0) (⟨512 * t.val + p.val, hlt⟩ : Fin 8192) q
  unfold projAt
  rw [bblk7_at V c t q]
  refine congrArg (· + _) (Finset.sum_congr rfl fun k _ => ?_)
  rw [xblk_at V c t p k (⟨512 * t.val + p.val, hlt⟩ : Fin 8192) rfl, wblk7_at V c t q k]

/-- An index of the array is in point t's block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4_0).slice (win0_7.rect t)).set ↔ _
  rw [View.set_slice_whole, Rect.mem_set_unit]
  exact Iff.rfl

/-- Every row belongs to the block of the point its row number divided by 512 names. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have e := idx_w7 (⟨(i 0).val / 512, by omega⟩ : Fin cfg0.N)
  refine ⟨⟨(i 0).val / 512, by omega⟩, flush0_7 _, ?_⟩
  rw [mem_blk7]
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e.1]
    show (i 0).val / 512 * 512 ≤ (i 0).val ∧ (i 0).val < (i 0).val / 512 * 512 + 512
    omega
  | ⟨1, _⟩ =>
    show win0_7.index ⟨(i 0).val / 512, _⟩ (1 : Fin 2) * 1024 ≤ (i 1).val ∧ (i 1).val < win0_7.index ⟨(i 0).val / 512, _⟩ (1 : Fin 2) * 1024 + 1024
    rw [e.2]
    omega

/-- The queries array after the region: the projection of the entry contents, entry by entry. -/
theorem final7 (c : Dev nD) : (dat0 V c).arrAt 7 cfg0.N = projFlat (V c main_v3) (V c main_arg1) (V c main_v0) :=
  (dat0 V c).arrAt_eq_of_cover 7 (projFlat (V c main_v3) (V c main_arg1) (V c main_v0)) (fun t _ => flushed7_eq V c t) (cover7)

theorem proj7_at (c : Dev nD) (r : Fin 8192) (f : Fin 1024) :
    (dat0 V c).arrAt 7 cfg0.N (ix2 r f) = projAt (V c main_v3) (V c main_arg1) (V c main_v0) r f := by
  rw [final7]; rfl

/-! ### Output window 8: the keys -/

theorem idx_w2 : ∀ t : Fin cfg0.N, win0_2.index t (0 : Fin 2) = 0 ∧ win0_2.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w8 : ∀ t : Fin cfg0.N, win0_8.index t (0 : Fin 2) = t.val ∧ win0_8.index t (1 : Fin 2) = 0 :=
  (by decide +kernel : ∀ t : Fin grid0.N, _)

theorem pay8_at (x0 : Vec Ideal S512x1024 .f32) (w : Vec Ideal S1024x1024 .f32) (b : Vec Ideal S1x1024 .f32) (p : Fin 512) (q : Fin 1024) :
    k0_pay3 x0 w b (ix2 p q) = (∑ k : Fin 1024, x0 (ix2 p k) * w (ix2 q k)) + b (ix2 (0 : Fin 1) q) :=
  pay_at x0 w b p q

/-- The weight window's one block is the whole matrix. -/
theorem wblk8_at (c : Dev nD) (t : Fin cfg0.N) (q k : Fin 1024) :
    (iblk0 V c 2 t : Vec Ideal S1024x1024 .f32) (ix2 q k) = V c main_arg3 (ix2 q k) := by
  have e := idx_w2 t
  unfold iblk0
  rw [View.read_apply]
  show V c main_arg3 _ = V c main_arg3 _
  refine congrArg (V c main_arg3) (funext fun a => Fin.ext ?_)
  match a with
  | ⟨0, _⟩ => show win0_2.index t (0 : Fin 2) * 1024 + 1 * q.val = q.val; rw [e.1]; omega
  | ⟨1, _⟩ => show win0_2.index t (1 : Fin 2) * 1024 + 1 * k.val = k.val; rw [e.2]; omega

/-- The bias window's one block is the whole row. -/
theorem bblk8_at (c : Dev nD) (t : Fin cfg0.N) (q : Fin 1024) :
    (iblk0 V c 5 t : Vec Ideal S1x1024 .f32) (ix2 (0 : Fin 1) q) = V c main_v1 (ix2 (0 : Fin 1) q) := by
  have e := idx_w5 t
  unfold iblk0
  rw [View.read_apply]
  show V c main_v1 _ = V c main_v1 _
  refine congrArg (V c main_v1) (funext fun a => Fin.ext ?_)
  match a with
  | ⟨0, _⟩ => show win0_5.index t (0 : Fin 2) * 1 + 1 * 0 = 0; rw [e.1]
  | ⟨1, _⟩ => show win0_5.index t (1 : Fin 2) * 1024 + 1 * q.val = q.val; rw [e.2]; omega

/-- What point t writes back is block t of the projection of the entry contents. -/
theorem flushed8_eq (c : Dev nD) (t : Fin cfg0.N) :
    (dat0 V c).flushed 8 t = ((cfg0.win 8).blk t).view.read (Elt Ideal) (projFlat (V c main_v3) (V c main_arg3) (V c main_v1)) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  have ht : t.val < 16 := by have h1 := t.isLt; have h2 : cfg0.N = 16 := N_0; omega
  have e := idx_w8 t
  funext j
  obtain ⟨p, q, rfl⟩ : ∃ (p : Fin 512) (q : Fin 1024), j = ix2 p q := ⟨j 0, j 1, eq_ix2 j⟩
  have hlt : 512 * t.val + p.val < 8192 := by have := p.isLt; omega
  have hemb : ((cfg0.win 8).blk t).view.emb (ix2 p q) = (ix2 (⟨512 * t.val + p.val, hlt⟩ : Fin 8192) q : S8192x1024.Idx) :=
    funext fun a => Fin.ext (by
      match a with
      | ⟨0, _⟩ => show win0_8.index t (0 : Fin 2) * 512 + 1 * p.val = 512 * t.val + p.val; rw [e.1]; omega
      | ⟨1, _⟩ => show win0_8.index t (1 : Fin 2) * 1024 + 1 * q.val = q.val; rw [e.2]; omega)
  show k0_pay3 (iblk0 V c 0 t) (iblk0 V c 2 t) (iblk0 V c 5 t) (ix2 p q) = projFlat (V c main_v3) (V c main_arg3) (V c main_v1) (((cfg0.win 8).blk t).view.emb (ix2 p q))
  rw [hemb]
  refine (pay8_at _ _ _ p q).trans ?_
  show _ = projAt (V c main_v3) (V c main_arg3) (V c main_v1) (⟨512 * t.val + p.val, hlt⟩ : Fin 8192) q
  unfold projAt
  rw [bblk8_at V c t q]
  refine congrArg (· + _) (Finset.sum_congr rfl fun k _ => ?_)
  rw [xblk_at V c t p k (⟨512 * t.val + p.val, hlt⟩ : Fin 8192) rfl, wblk8_at V c t q k]

/-- An index of the array is in point t's block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v4_1).slice (win0_8.rect t)).set ↔ _
  rw [View.set_slice_whole, Rect.mem_set_unit]
  exact Iff.rfl

/-- Every row belongs to the block of the point its row number divided by 512 names. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  have e := idx_w8 (⟨(i 0).val / 512, by omega⟩ : Fin cfg0.N)
  refine ⟨⟨(i 0).val / 512, by omega⟩, flush0_8 _, ?_⟩
  rw [mem_blk8]
  intro a
  match a with
  | ⟨0, _⟩ =>
    show win0_8.index ⟨(i 0).val / 512, _⟩ (0 : Fin 2) * 512 ≤ (i 0).val ∧ (i 0).val < win0_8.index ⟨(i 0).val / 512, _⟩ (0 : Fin 2) * 512 + 512
    rw [e.1]
    show (i 0).val / 512 * 512 ≤ (i 0).val ∧ (i 0).val < (i 0).val / 512 * 512 + 512
    omega
  | ⟨1, _⟩ =>
    show win0_8.index ⟨(i 0).val / 512, _⟩ (1 : Fin 2) * 1024 ≤ (i 1).val ∧ (i 1).val < win0_8.index ⟨(i 0).val / 512, _⟩ (1 : Fin 2) * 1024 + 1024
    rw [e.2]
    omega

/-- The keys array after the region: the projection of the entry contents, entry by entry. -/
theorem final8 (c : Dev nD) : (dat0 V c).arrAt 8 cfg0.N = projFlat (V c main_v3) (V c main_arg3) (V c main_v1) :=
  (dat0 V c).arrAt_eq_of_cover 8 (projFlat (V c main_v3) (V c main_arg3) (V c main_v1)) (fun t _ => flushed8_eq V c t) (cover8)

theorem proj8_at (c : Dev nD) (r : Fin 8192) (f : Fin 1024) :
    (dat0 V c).arrAt 8 cfg0.N (ix2 r f) = projAt (V c main_v3) (V c main_arg3) (V c main_v1) r f := by
  rw [final8]; rfl

/-! ### Output window 9: the values -/

theorem idx_w3 : ∀ t : Fin cfg0.N, win0_3.index t (0 : Fin 2) = 0 ∧ win0_3.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w9 : ∀ t : Fin cfg0.N, win0_9.index t (0 : Fin 2) = t.val ∧ win0_9.index t (1 : Fin 2) = 0 :=
  (by decide +kernel : ∀ t : Fin grid0.N, _)

theorem pay9_at (x0 : Vec Ideal S512x1024 .f32) (w : Vec Ideal S1024x1024 .f32) (b : Vec Ideal S1x1024 .f32) (p : Fin 512) (q : Fin 1024) :
    k0_pay4 x0 w b (ix2 p q) = (∑ k : Fin 1024, x0 (ix2 p k) * w (ix2 q k)) + b (ix2 (0 : Fin 1) q) :=
  pay_at x0 w b p q

/-- The weight window's one block is the whole matrix. -/
theorem wblk9_at (c : Dev nD) (t : Fin cfg0.N) (q k : Fin 1024) :
    (iblk0 V c 3 t : Vec Ideal S1024x1024 .f32) (ix2 q k) = V c main_arg5 (ix2 q k) := by
  have e := idx_w3 t
  unfold iblk0
  rw [View.read_apply]
  show V c main_arg5 _ = V c main_arg5 _
  refine congrArg (V c main_arg5) (funext fun a => Fin.ext ?_)
  match a with
  | ⟨0, _⟩ => show win0_3.index t (0 : Fin 2) * 1024 + 1 * q.val = q.val; rw [e.1]; omega
  | ⟨1, _⟩ => show win0_3.index t (1 : Fin 2) * 1024 + 1 * k.val = k.val; rw [e.2]; omega

/-- The bias window's one block is the whole row. -/
theorem bblk9_at (c : Dev nD) (t : Fin cfg0.N) (q : Fin 1024) :
    (iblk0 V c 6 t : Vec Ideal S1x1024 .f32) (ix2 (0 : Fin 1) q) = V c main_v2 (ix2 (0 : Fin 1) q) := by
  have e := idx_w6 t
  unfold iblk0
  rw [View.read_apply]
  show V c main_v2 _ = V c main_v2 _
  refine congrArg (V c main_v2) (funext fun a => Fin.ext ?_)
  match a with
  | ⟨0, _⟩ => show win0_6.index t (0 : Fin 2) * 1 + 1 * 0 = 0; rw [e.1]
  | ⟨1, _⟩ => show win0_6.index t (1 : Fin 2) * 1024 + 1 * q.val = q.val; rw [e.2]; omega

/-- What point t writes back is block t of the projection of the entry contents. -/
theorem flushed9_eq (c : Dev nD) (t : Fin cfg0.N) :
    (dat0 V c).flushed 9 t = ((cfg0.win 9).blk t).view.read (Elt Ideal) (projFlat (V c main_v3) (V c main_arg5) (V c main_v2)) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  have ht : t.val < 16 := by have h1 := t.isLt; have h2 : cfg0.N = 16 := N_0; omega
  have e := idx_w9 t
  funext j
  obtain ⟨p, q, rfl⟩ : ∃ (p : Fin 512) (q : Fin 1024), j = ix2 p q := ⟨j 0, j 1, eq_ix2 j⟩
  have hlt : 512 * t.val + p.val < 8192 := by have := p.isLt; omega
  have hemb : ((cfg0.win 9).blk t).view.emb (ix2 p q) = (ix2 (⟨512 * t.val + p.val, hlt⟩ : Fin 8192) q : S8192x1024.Idx) :=
    funext fun a => Fin.ext (by
      match a with
      | ⟨0, _⟩ => show win0_9.index t (0 : Fin 2) * 512 + 1 * p.val = 512 * t.val + p.val; rw [e.1]; omega
      | ⟨1, _⟩ => show win0_9.index t (1 : Fin 2) * 1024 + 1 * q.val = q.val; rw [e.2]; omega)
  show k0_pay4 (iblk0 V c 0 t) (iblk0 V c 3 t) (iblk0 V c 6 t) (ix2 p q) = projFlat (V c main_v3) (V c main_arg5) (V c main_v2) (((cfg0.win 9).blk t).view.emb (ix2 p q))
  rw [hemb]
  refine (pay9_at _ _ _ p q).trans ?_
  show _ = projAt (V c main_v3) (V c main_arg5) (V c main_v2) (⟨512 * t.val + p.val, hlt⟩ : Fin 8192) q
  unfold projAt
  rw [bblk9_at V c t q]
  refine congrArg (· + _) (Finset.sum_congr rfl fun k _ => ?_)
  rw [xblk_at V c t p k (⟨512 * t.val + p.val, hlt⟩ : Fin 8192) rfl, wblk9_at V c t q k]

/-- An index of the array is in point t's block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v4_2).slice (win0_9.rect t)).set ↔ _
  rw [View.set_slice_whole, Rect.mem_set_unit]
  exact Iff.rfl

/-- Every row belongs to the block of the point its row number divided by 512 names. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  have e := idx_w9 (⟨(i 0).val / 512, by omega⟩ : Fin cfg0.N)
  refine ⟨⟨(i 0).val / 512, by omega⟩, flush0_9 _, ?_⟩
  rw [mem_blk9]
  intro a
  match a with
  | ⟨0, _⟩ =>
    show win0_9.index ⟨(i 0).val / 512, _⟩ (0 : Fin 2) * 512 ≤ (i 0).val ∧ (i 0).val < win0_9.index ⟨(i 0).val / 512, _⟩ (0 : Fin 2) * 512 + 512
    rw [e.1]
    show (i 0).val / 512 * 512 ≤ (i 0).val ∧ (i 0).val < (i 0).val / 512 * 512 + 512
    omega
  | ⟨1, _⟩ =>
    show win0_9.index ⟨(i 0).val / 512, _⟩ (1 : Fin 2) * 1024 ≤ (i 1).val ∧ (i 1).val < win0_9.index ⟨(i 0).val / 512, _⟩ (1 : Fin 2) * 1024 + 1024
    rw [e.2]
    omega

/-- The values array after the region: the projection of the entry contents, entry by entry. -/
theorem final9 (c : Dev nD) : (dat0 V c).arrAt 9 cfg0.N = projFlat (V c main_v3) (V c main_arg5) (V c main_v2) :=
  (dat0 V c).arrAt_eq_of_cover 9 (projFlat (V c main_v3) (V c main_arg5) (V c main_v2)) (fun t _ => flushed9_eq V c t) (cover9)

theorem proj9_at (c : Dev nD) (r : Fin 8192) (f : Fin 1024) :
    (dat0 V c).arrAt 9 cfg0.N (ix2 r f) = projAt (V c main_v3) (V c main_arg5) (V c main_v2) r f := by
  rw [final9]; rfl

end Cert.KernelIdeal.RegionProject

end
-- ==== Proof.KernelBoundaries.lean ====
/-
  The buffer contents at the boundaries of the idealized kernel program's segments, read where the three regions
  read them. A host stretch here is only reshapes: a [1024] bias becomes a [1, 1024] row, the [4, 2048, 1024] input
  becomes [8192, 1024] (row 2048 n + s of the flat array is row (n, s) of the input), and each flat projection goes
  back to [4, 2048, 1024]. A region leaves every buffer that is not one of its arrays as it found it, and no host
  operation writes an argument, so the weights and biases are read at every boundary as launched.
-/
import proofs.«162765_j59133109731524_2_alg».proof.Proof.Gen.KernelIdeal.Frame
import Idealize.ShloMosaic.Lib.StableHlo.Run
import Idealize.ShloMosaic.Lib.Pipeline.Value
import Idealize.ShloMosaic.Lib.ValueLayout
import proofs.«162765_j59133109731524_2_alg».proof.Proof.RegionProject
import proofs.«162765_j59133109731524_2_alg».proof.Proof.AttentionSpec

set_option maxRecDepth 16384

noncomputable section

namespace Cert.KernelIdeal.Boundaries

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## Before the first region -/

/-- Row 2048 n + s of the flattened input is row (n, s) of the input. -/
theorem flat_input_at (c : Dev nD) (n : Fin 4) (s : Fin 2048) (k : Fin 1024) (r : Fin 8192) (hr : r.val = 2048 * n.val + s.val) :
    V1 m ρ c main_v3 (ix2 r k) = m ((c : Thread nD τ).loc main_arg0) (ix3 n s k) := by
  show StableHlo.after hostOps0 (W0 m ρ c) (Proc.devRef .tc main_v3) (ix2 r k) = _
  after_results
  refine shapeCast_apply _ _ (ix2 r k) (ix3 n s k) ?_
  rw [Shape.rowMajor_val_three, Shape.rowMajor_val_two]
  show (n.val * 2048 + s.val) * 1024 + k.val = r.val * 1024 + k.val
  rw [hr]; ring

/-- The query bias as a row: entry (0, f) is the bias at f. -/
theorem main_v0_at (c : Dev nD) (f : Fin 1024) :
    V1 m ρ c main_v0 (ix2 (0 : Fin 1) f) = m ((c : Thread nD τ).loc main_arg2) (ix1 f) := by
  show StableHlo.after hostOps0 (W0 m ρ c) (Proc.devRef .tc main_v0) (ix2 (0 : Fin 1) f) = _
  after_results
  exact shapeCast_a_1a_apply _ _ 0 f

/-- The key bias as a row: entry (0, f) is the bias at f. -/
theorem main_v1_at (c : Dev nD) (f : Fin 1024) :
    V1 m ρ c main_v1 (ix2 (0 : Fin 1) f) = m ((c : Thread nD τ).loc main_arg4) (ix1 f) := by
  show StableHlo.after hostOps0 (W0 m ρ c) (Proc.devRef .tc main_v1) (ix2 (0 : Fin 1) f) = _
  after_results
  exact shapeCast_a_1a_apply _ _ 0 f

/-- The value bias as a row: entry (0, f) is the bias at f. -/
theorem main_v2_at (c : Dev nD) (f : Fin 1024) :
    V1 m ρ c main_v2 (ix2 (0 : Fin 1) f) = m ((c : Thread nD τ).loc main_arg6) (ix1 f) := by
  show StableHlo.after hostOps0 (W0 m ρ c) (Proc.devRef .tc main_v2) (ix2 (0 : Fin 1) f) = _
  after_results
  exact shapeCast_a_1a_apply _ _ 0 f

/-- The query weights reach the first region as launched. -/
theorem main_arg1_V1 (c : Dev nD) : V1 m ρ c main_arg1 = m ((c : Thread nD τ).loc main_arg1) := by
  show StableHlo.after hostOps0 (W0 m ρ c) (Proc.devRef .tc main_arg1) = _
  after_results

/-- The key weights reach the first region as launched. -/
theorem main_arg3_V1 (c : Dev nD) : V1 m ρ c main_arg3 = m ((c : Thread nD τ).loc main_arg3) := by
  show StableHlo.after hostOps0 (W0 m ρ c) (Proc.devRef .tc main_arg3) = _
  after_results

/-- The value weights reach the first region as launched. -/
theorem main_arg5_V1 (c : Dev nD) : V1 m ρ c main_arg5 = m ((c : Thread nD τ).loc main_arg5) := by
  show StableHlo.after hostOps0 (W0 m ρ c) (Proc.devRef .tc main_arg5) = _
  after_results

/-! ## After the first region -/

/-- Row 2048 n + s of the flat queries array is the projection of input row (n, s). -/
theorem flat_queries_at (c : Dev nD) (n : Fin 4) (s : Fin 2048) (e : Fin 1024) (r : Fin 8192) (hr : r.val = 2048 * n.val + s.val) :
    W2 m ρ c (Proc.devRef .tc main_v4_0) (ix2 r e) = Cert.Attention.proj (m ((c : Thread nD τ).loc main_arg0)) (m ((c : Thread nD τ).loc main_arg1)) (m ((c : Thread nD τ).loc main_arg2)) n s e := by
  have h := W2_arr m ρ c 7
  have h' : W2 m ρ c (Proc.devRef .tc main_v4_0) = (dat0 (V1 m ρ) c).arrAt 7 cfg0.N := h
  rw [h', RegionProject.proj7_at (V1 m ρ) c r e]
  unfold RegionProject.projAt Cert.Attention.proj
  rw [main_v0_at m ρ c e, main_arg1_V1 m ρ c]
  refine congrArg (· + _) (Finset.sum_congr rfl fun k _ => ?_)
  rw [flat_input_at m ρ c n s k r hr]

/-- Row 2048 n + s of the flat keys array is the projection of input row (n, s). -/
theorem flat_keys_at (c : Dev nD) (n : Fin 4) (s : Fin 2048) (e : Fin 1024) (r : Fin 8192) (hr : r.val = 2048 * n.val + s.val) :
    W2 m ρ c (Proc.devRef .tc main_v4_1) (ix2 r e) = Cert.Attention.proj (m ((c : Thread nD τ).loc main_arg0)) (m ((c : Thread nD τ).loc main_arg3)) (m ((c : Thread nD τ).loc main_arg4)) n s e := by
  have h := W2_arr m ρ c 8
  have h' : W2 m ρ c (Proc.devRef .tc main_v4_1) = (dat0 (V1 m ρ) c).arrAt 8 cfg0.N := h
  rw [h', RegionProject.proj8_at (V1 m ρ) c r e]
  unfold RegionProject.projAt Cert.Attention.proj
  rw [main_v1_at m ρ c e, main_arg3_V1 m ρ c]
  refine congrArg (· + _) (Finset.sum_congr rfl fun k _ => ?_)
  rw [flat_input_at m ρ c n s k r hr]

/-- Row 2048 n + s of the flat values array is the projection of input row (n, s). -/
theorem flat_values_at (c : Dev nD) (n : Fin 4) (s : Fin 2048) (e : Fin 1024) (r : Fin 8192) (hr : r.val = 2048 * n.val + s.val) :
    W2 m ρ c (Proc.devRef .tc main_v4_2) (ix2 r e) = Cert.Attention.proj (m ((c : Thread nD τ).loc main_arg0)) (m ((c : Thread nD τ).loc main_arg5)) (m ((c : Thread nD τ).loc main_arg6)) n s e := by
  have h := W2_arr m ρ c 9
  have h' : W2 m ρ c (Proc.devRef .tc main_v4_2) = (dat0 (V1 m ρ) c).arrAt 9 cfg0.N := h
  rw [h', RegionProject.proj9_at (V1 m ρ) c r e]
  unfold RegionProject.projAt Cert.Attention.proj
  rw [main_v2_at m ρ c e, main_arg5_V1 m ρ c]
  refine congrArg (· + _) (Finset.sum_congr rfl fun k _ => ?_)
  rw [flat_input_at m ρ c n s k r hr]

/-! ## Before the second region -/

/-- The queries as the later regions read them: entry (n, s, e) of the reshaped array is entry (2048 n + s, e) of the flat one. -/
theorem queries_at (c : Dev nD) (n : Fin 4) (s : Fin 2048) (e : Fin 1024) :
    V3 m ρ c main_v5 (ix3 n s e) = Cert.Attention.proj (m ((c : Thread nD τ).loc main_arg0)) (m ((c : Thread nD τ).loc main_arg1)) (m ((c : Thread nD τ).loc main_arg2)) n s e := by
  have hlt : 2048 * n.val + s.val < 8192 := by have := n.isLt; have := s.isLt; omega
  rw [← flat_queries_at m ρ c n s e (⟨2048 * n.val + s.val, hlt⟩ : Fin 8192) rfl]
  show StableHlo.after hostOps1 (W2 m ρ c) (Proc.devRef .tc main_v5) (ix3 n s e) = _
  after_results
  refine shapeCast_apply _ _ (ix3 n s e) (ix2 (⟨2048 * n.val + s.val, hlt⟩ : Fin 8192) e) ?_
  rw [Shape.rowMajor_val_three, Shape.rowMajor_val_two]
  show (2048 * n.val + s.val) * 1024 + e.val = (n.val * 2048 + s.val) * 1024 + e.val
  ring

/-- The keys as the later regions read them: entry (n, s, e) of the reshaped array is entry (2048 n + s, e) of the flat one. -/
theorem keys_at (c : Dev nD) (n : Fin 4) (s : Fin 2048) (e : Fin 1024) :
    V3 m ρ c main_v6 (ix3 n s e) = Cert.Attention.proj (m ((c : Thread nD τ).loc main_arg0)) (m ((c : Thread nD τ).loc main_arg3)) (m ((c : Thread nD τ).loc main_arg4)) n s e := by
  have hlt : 2048 * n.val + s.val < 8192 := by have := n.isLt; have := s.isLt; omega
  rw [← flat_keys_at m ρ c n s e (⟨2048 * n.val + s.val, hlt⟩ : Fin 8192) rfl]
  show StableHlo.after hostOps1 (W2 m ρ c) (Proc.devRef .tc main_v6) (ix3 n s e) = _
  after_results
  refine shapeCast_apply _ _ (ix3 n s e) (ix2 (⟨2048 * n.val + s.val, hlt⟩ : Fin 8192) e) ?_
  rw [Shape.rowMajor_val_three, Shape.rowMajor_val_two]
  show (2048 * n.val + s.val) * 1024 + e.val = (n.val * 2048 + s.val) * 1024 + e.val
  ring

/-- The values as the later regions read them: entry (n, s, e) of the reshaped array is entry (2048 n + s, e) of the flat one. -/
theorem values_at (c : Dev nD) (n : Fin 4) (s : Fin 2048) (e : Fin 1024) :
    V3 m ρ c main_v7 (ix3 n s e) = Cert.Attention.proj (m ((c : Thread nD τ).loc main_arg0)) (m ((c : Thread nD τ).loc main_arg5)) (m ((c : Thread nD τ).loc main_arg6)) n s e := by
  have hlt : 2048 * n.val + s.val < 8192 := by have := n.isLt; have := s.isLt; omega
  rw [← flat_values_at m ρ c n s e (⟨2048 * n.val + s.val, hlt⟩ : Fin 8192) rfl]
  show StableHlo.after hostOps1 (W2 m ρ c) (Proc.devRef .tc main_v7) (ix3 n s e) = _
  after_results
  refine shapeCast_apply _ _ (ix3 n s e) (ix2 (⟨2048 * n.val + s.val, hlt⟩ : Fin 8192) e) ?_
  rw [Shape.rowMajor_val_three, Shape.rowMajor_val_two]
  show (2048 * n.val + s.val) * 1024 + e.val = (n.val * 2048 + s.val) * 1024 + e.val
  ring

/-- The output weights reach the second region as launched. -/
theorem main_arg7_V3 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

/-! ## Before the third region -/

/-- The output bias as the launched array, walked back through both earlier regions. -/
theorem main_arg8_W4 (c : Dev nD) : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

/-- The output bias as a row: entry (0, f) is the bias at f. -/
theorem main_v9_at (c : Dev nD) (f : Fin 1024) :
    V5 m ρ c main_v9 (ix2 (0 : Fin 1) f) = m ((c : Thread nD τ).loc main_arg8) (ix1 f) := by
  rw [← main_arg8_W4 m ρ c]
  show StableHlo.after hostOps2 (W4 m ρ c) (Proc.devRef .tc main_v9) (ix2 (0 : Fin 1) f) = _
  after_results
  exact shapeCast_a_1a_apply _ _ 0 f

/-- The third region finds the second region's output array as that region left it. -/
theorem main_v8_V5 (c : Dev nD) : V5 m ρ c main_v8 = (dat1 (V3 m ρ) c).arrAt 3 cfg1.N := by
  show StableHlo.after hostOps2 (W4 m ρ c) (Proc.devRef .tc main_v8) = _
  after_results
  exact W4_arr m ρ c 3

/-- The third region finds the queries as the second region found them. -/
theorem main_v5_V5 (c : Dev nD) : V5 m ρ c main_v5 = V3 m ρ c main_v5 := by
  show StableHlo.after hostOps2 (W4 m ρ c) (Proc.devRef .tc main_v5) = _
  after_results
  exact W4_of_ne m ρ c main_v5 (by decide)

/-- The result buffer ends at what the third region's write-backs leave. -/
theorem main_v10_W6 (c : Dev nD) : W6 m ρ c (Proc.devRef .tc main_v10) = (dat2 (V5 m ρ) c).arrAt 3 cfg2.N :=
  W6_arr m ρ c 3

end Cert.KernelIdeal.Boundaries

end
-- ==== Proof.RegionMix.lean ====
/-
  The second region of the kernel, read as one array: the keys against the values over the sequence axis, carried
  through the output weights.

  The region runs over four points, one per batch entry n.  At point n its body reads slab n of the keys K and of
  the values B (each [1, 2048, 1024]) and the whole matrix of output weights W ([1024, 1024]), and stores
      out(e, f) = sum over g of (sum over t of K(n, t, e) * B(n, t, g)) * W(f, g)
  as slab n of the output ([1, 1024, 1024]): the first product contracts the sequence axis t (columns against
  columns), the second contracts g against the rows of W.  Changes of float format are the identity on the
  extended reals, and the casts that drop or add the leading unit axis only rename indices.

  Each input block is read entry by entry from the array the region finds on entry (a block's coordinate is its
  block index times the block size plus the coordinate inside the block), the four output slabs cover the output
  array, and so the array after the region is that function of the entry contents at every index (n, e, f).
-/
import proofs.«162765_j59133109731524_2_alg».proof.Proof.Gen.KernelIdeal.Frame
import proofs.«162765_j59133109731524_2_alg».proof.Proof.KernelProducts
import Idealize.ShloMosaic.Lib.Pipeline.Value
import Idealize.ShloMosaic.Lib.ValueLayout
import Idealize.ShloMosaic.Lib.ValueIdx

set_option maxRecDepth 16384

noncomputable section

namespace Cert.KernelIdeal.RegionMix

open Cert.KernelIdeal Cert.KernelIdeal.Gen Idealize.ShloMosaic Idealize.ShloMosaic.TcCoe Idealize.SL.Sem Idealize.ShloMosaic.ValueIdx
open Idealize.ShloMosaic.Pipeline (Dat)

/-- The body's arithmetic at an index: the keys' block against the values' block over the sequence axis, then
    against the rows of the output weights. -/
theorem pay_at (x0 x1 : Vec Ideal S1x2048x1024 .bf16) (x2 : Vec Ideal S1024x1024 .f32) (u : Fin 1) (e f : Fin 1024) :
    k1_pay1 (F := Ideal) x0 x1 x2 (ix3 u e f)
      = ∑ g : Fin 1024, (∑ t : Fin 2048, x0 (ix3 (0 : Fin 1) t e) * x1 (ix3 (0 : Fin 1) t g)) * x2 (ix2 f g) := by
  unfold k1_pay1
  rw [shapeCast_ab_1ab_apply, Products.rows_rows_at]
  refine Finset.sum_congr rfl fun g _ => ?_
  rw [truncf_apply, truncf_apply, Products.cols_cols_at]
  refine congrArg (· * x2 (ix2 f g)) (Finset.sum_congr rfl fun t _ => ?_)
  rw [shapeCast_1ab_ab_apply, shapeCast_1ab_ab_apply]

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the keys', the values' and the output's block at point t is the t-th slab along
    the leading axis; the weights' block is the whole matrix. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The keys' block at point t is slab t of the keys. -/
theorem keys_blk (c : Dev nD) (t : Fin cfg1.N) (n : Fin 4) (hn : n.val = t.val) (u : Fin 1) (s : Fin 2048) (e : Fin 1024) :
    (iblk1 V c 0 t : Vec Ideal S1x2048x1024 .bf16) (ix3 u s e) = (V c main_v6 : S4x2048x1024.Idx → EReal) (ix3 n s e) := by
  obtain ⟨e0, e1, e2, -⟩ := idx_facts t
  unfold iblk1
  rw [View.read_apply]
  show V c main_v6 _ = V c main_v6 _
  congr 1
  funext a
  apply Fin.ext
  have hu : u.val = 0 := by omega
  match a with
  | ⟨0, _⟩ => show win1_0.index t 0 * 1 + 1 * u.val = n.val; rw [e0, hn, hu]; omega
  | ⟨1, _⟩ => show win1_0.index t 1 * 2048 + 1 * s.val = s.val; rw [e1]; omega
  | ⟨2, _⟩ => show win1_0.index t 2 * 1024 + 1 * e.val = e.val; rw [e2]; omega

/-- The values' block at point t is slab t of the values. -/
theorem values_blk (c : Dev nD) (t : Fin cfg1.N) (n : Fin 4) (hn : n.val = t.val) (u : Fin 1) (s : Fin 2048) (g : Fin 1024) :
    (iblk1 V c 1 t : Vec Ideal S1x2048x1024 .bf16) (ix3 u s g) = (V c main_v7 : S4x2048x1024.Idx → EReal) (ix3 n s g) := by
  obtain ⟨-, -, -, e0, e1, e2, -⟩ := idx_facts t
  unfold iblk1
  rw [View.read_apply]
  show V c main_v7 _ = V c main_v7 _
  congr 1
  funext a
  apply Fin.ext
  have hu : u.val = 0 := by omega
  match a with
  | ⟨0, _⟩ => show win1_1.index t 0 * 1 + 1 * u.val = n.val; rw [e0, hn, hu]; omega
  | ⟨1, _⟩ => show win1_1.index t 1 * 2048 + 1 * s.val = s.val; rw [e1]; omega
  | ⟨2, _⟩ => show win1_1.index t 2 * 1024 + 1 * g.val = g.val; rw [e2]; omega

/-- The weights' block at every point is the whole matrix. -/
theorem weights_blk (c : Dev nD) (t : Fin cfg1.N) (f g : Fin 1024) :
    (iblk1 V c 2 t : Vec Ideal S1024x1024 .f32) (ix2 f g) = (V c main_arg7 : S1024x1024.Idx → EReal) (ix2 f g) := by
  obtain ⟨-, -, -, -, -, -, e0, e1, -⟩ := idx_facts t
  unfold iblk1
  rw [View.read_apply]
  show V c main_arg7 _ = V c main_arg7 _
  congr 1
  funext a
  apply Fin.ext
  match a with
  | ⟨0, _⟩ => show win1_2.index t 0 * 1024 + 1 * f.val = f.val; rw [e0]; omega
  | ⟨1, _⟩ => show win1_2.index t 1 * 1024 + 1 * g.val = g.val; rw [e1]; omega

/-- The keys, the values and the output weights as the region finds them, as arrays of extended reals. -/
abbrev keys (c : Dev nD) : S4x2048x1024.Idx → EReal := V c main_v6
abbrev vals (c : Dev nD) : S4x2048x1024.Idx → EReal := V c main_v7
abbrev wo (c : Dev nD) : S1024x1024.Idx → EReal := V c main_arg7

/-- The mixed key-value matrix at coordinates, from the region-entry contents. -/
def mixAt (c : Dev nD) (n : Fin 4) (e f : Fin 1024) : EReal :=
  ∑ g : Fin 1024, (∑ t : Fin 2048, keys V c (ix3 n t e) * vals V c (ix3 n t g)) * wo V c (ix2 f g)

/-- The mixed key-value matrix as one array. -/
def mixArr (c : Dev nD) : S4x1024x1024.Idx → EReal := fun i => mixAt V c (i 0) (i 1) (i 2)

theorem mixArr_ix3 (c : Dev nD) (n : Fin 4) (e f : Fin 1024) : mixArr V c (ix3 n e f) = mixAt V c n e f := rfl

/-- The output's block at point t sits at slab t. -/
theorem out_emb (t : Fin cfg1.N) (n : Fin 4) (hn : n.val = t.val) (u : Fin 1) (e f : Fin 1024) :
    ((cfg1.win 3).blk t).view.emb (ix3 u e f) = (ix3 n e f : S4x1024x1024.Idx) := by
  obtain ⟨-, -, -, -, -, -, -, -, e0, e1, e2⟩ := idx_facts t
  funext a
  apply Fin.ext
  have hu : u.val = 0 := by omega
  match a with
  | ⟨0, _⟩ => show win1_3.index t 0 * 1 + 1 * u.val = n.val; rw [e0, hn, hu]; omega
  | ⟨1, _⟩ => show win1_3.index t 1 * 1024 + 1 * e.val = e.val; rw [e1]; omega
  | ⟨2, _⟩ => show win1_3.index t 2 * 1024 + 1 * f.val = f.val; rw [e2]; omega

/-- What point t writes back is block t of the mixed key-value array. -/
theorem flushed_eq (c : Dev nD) (t : Fin cfg1.N) :
    (dat1 (F := Ideal) V c).flushed 3 t = ((cfg1.win 3).blk t).view.read (Elt Ideal) (mixArr V c) := by
  have ht : t.val < 4 := lt_of_lt_of_eq t.isLt N_1
  show (cfg1.win 3).cut (grid1.coords t) ((dat1 V c).after 3 t) = _
  rw [after1_3]
  unfold out1_3
  rw [View.canon_unit_zero hz3]
  simp only [View.ld_unit_zero (S := S1x2048x1024) hz3, View.ld_unit_zero (S := S1024x1024) hz2]
  funext j
  obtain ⟨u, e, f, rfl⟩ : ∃ (u : Fin 1) (e f : Fin 1024), j = ix3 u e f := ⟨j 0, j 1, j 2, eq_ix3 j⟩
  show k1_pay1 (F := Ideal) (iblk1 V c 0 t) (iblk1 V c 1 t) (iblk1 V c 2 t) (ix3 u e f)
    = mixArr V c (((cfg1.win 3).blk t).view.emb (ix3 u e f))
  refine (pay_at (iblk1 V c 0 t) (iblk1 V c 1 t) (iblk1 V c 2 t) u e f).trans ?_
  rw [out_emb t ⟨t.val, ht⟩ rfl u e f, mixArr_ix3]
  unfold mixAt
  refine Finset.sum_congr rfl fun g _ => ?_
  rw [weights_blk V c t f g]
  refine congrArg (· * _) (Finset.sum_congr rfl fun s _ => ?_)
  rw [keys_blk V c t ⟨t.val, ht⟩ rfl 0 s e, values_blk V c t ⟨t.val, ht⟩ rfl 0 s g]

/-- An index of the array is in point t's block iff each coordinate is in the block's range on its axis. -/
theorem mem_blk (t : Fin cfg1.N) (i : S4x1024x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v8).slice (win1_3.rect t)).set ↔ _
  rw [View.set_slice_whole, Rect.mem_set_unit]
  exact Iff.rfl

/-- The four slabs cover the array: index (n, e, f) is in point n's block. -/
theorem cover (i : S4x1024x1024.Idx) :
    ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  let t : Fin cfg1.N := ⟨(i 0).val, by rw [show cfg1.N = 4 from N_1]; exact hi0⟩
  obtain ⟨-, -, -, -, -, -, -, -, e0, e1, e2⟩ := idx_facts t
  refine ⟨t, flush1_3 t, ?_⟩
  rw [mem_blk]
  intro a
  match a with
  | ⟨0, _⟩ => show win1_3.index t 0 * 1 ≤ (i 0).val ∧ (i 0).val < win1_3.index t 0 * 1 + 1; rw [e0]; show (i 0).val * 1 ≤ (i 0).val ∧ (i 0).val < (i 0).val * 1 + 1; omega
  | ⟨1, _⟩ => show win1_3.index t 1 * 1024 ≤ (i 1).val ∧ (i 1).val < win1_3.index t 1 * 1024 + 1024; rw [e1]; omega
  | ⟨2, _⟩ => show win1_3.index t 2 * 1024 ≤ (i 2).val ∧ (i 2).val < win1_3.index t 2 * 1024 + 1024; rw [e2]; omega

/-- The output array after the region is the mixed key-value array. -/
theorem final (c : Dev nD) : (dat1 (F := Ideal) V c).arrAt 3 cfg1.N = mixArr V c :=
  (dat1 (F := Ideal) V c).arrAt_eq_of_cover 3 (mixArr V c) (fun t _ => flushed_eq V c t) cover

/-- The output array after the region, at coordinates. -/
theorem mix_at (c : Dev nD) (n : Fin 4) (e f : Fin 1024) :
    (dat1 (F := Ideal) V c).arrAt 3 cfg1.N (ix3 n e f)
      = ∑ g : Fin 1024, (∑ t : Fin 2048, keys V c (ix3 n t e) * vals V c (ix3 n t g)) * wo V c (ix2 f g) := by
  rw [final V c]
  rfl

/-- The same, with the three arrays the region reads named by the caller. -/
theorem mix_at_of (c : Dev nD) (n : Fin 4) (e f : Fin 1024) (K B : S4x2048x1024.Idx → EReal) (W : S1024x1024.Idx → EReal)
    (hK : V c main_v6 = K) (hB : V c main_v7 = B) (hW : V c main_arg7 = W) :
    (dat1 (F := Ideal) V c).arrAt 3 cfg1.N (ix3 n e f)
      = ∑ g : Fin 1024, (∑ t : Fin 2048, K (ix3 n t e) * B (ix3 n t g)) * W (ix2 f g) := by
  subst hK hB hW
  exact mix_at V c n e f

end Cert.KernelIdeal.RegionMix

end
-- ==== Proof.RegionOutput.lean ====
/-
  The output array of the kernel's last region, as one function of the arrays the region finds, entry by entry.

  The region walks a 4 x 2 grid. At point (b, h) it multiplies a 1024-row block of queries (batch b, rows
  1024 h .. 1024 h + 1023) by the batch's 1024 x 1024 mixing matrix, scales by 1/8 and adds the bias row; the eight
  blocks tile the output. So entry (n, s, f) of the output is
      (sum over e of q(n, s, e) * m(n, e, f)) * (1/8) + bias(0, f).
-/
import proofs.«162765_j59133109731524_2_alg».proof.Proof.Gen.KernelIdeal.Frame
import proofs.«162765_j59133109731524_2_alg».proof.Proof.KernelProducts
import Idealize.ShloMosaic.Lib.ValueLayout
import Idealize.ShloMosaic.Lib.Pipeline.Value

set_option maxRecDepth 16384

noncomputable section

namespace Cert.KernelIdeal.RegionOutput

open Cert.KernelIdeal Cert.KernelIdeal.Gen Idealize.ShloMosaic Idealize.ShloMosaic.TcCoe Idealize.SL.Sem Idealize.ShloMosaic.ValueIdx

/-! ## The body's payload at an entry -/

/-- What the body stores, at entry (u, p, q) of its block: row p of the query block against column q of the mixing
    block, scaled, plus the bias at q. -/
theorem pay_at (x0 : Vec Ideal S1x1024x1024 .bf16) (x1 : Vec Ideal S1x1024x1024 .f32) (x2 : Vec Ideal S1x1024 .f32)
    (u : Fin 1) (p q : Fin 1024) :
    k2_pay1 (F := Ideal) x0 x1 x2 (ix3 u p q)
      = (∑ e : Fin 1024, x0 (ix3 (0 : Fin 1) p e) * x1 (ix3 (0 : Fin 1) e q)) * Ideal.ofBits .f32 0x3E000000#32
        + x2 (ix2 (0 : Fin 1) q) := by
  unfold k2_pay1
  refine (shapeCast_ab_1ab_apply _ shapeCasts_S1024x1024_S1x1024x1024 u p q).trans ?_
  rw [addf_apply, mulf_apply, broadcast_apply, Products.rows_cols_at, broadcastTo_1b_ab_apply, shapeCast_self]
  refine congrArg₂ (· + ·) (congrArg₂ (· * ·) (Finset.sum_congr rfl fun e _ => ?_) rfl) rfl
  rw [shapeCast_1ab_ab_apply, truncf_apply, shapeCast_1ab_ab_apply]

/-! ## The printed index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point t of the 4 x 2 grid is (t / 2, t % 2): the query and output blocks sit at (t / 2, t % 2, 0), the mixing block at
    (t / 2, 0, 0), the bias block at (0, 0). -/
theorem idx_facts : ∀ t : Fin cfg2.N,
    win2_3.index t (0 : Fin 3) = t.val / 2 ∧ win2_3.index t (1 : Fin 3) = t.val % 2 ∧ win2_3.index t (2 : Fin 3) = 0
    ∧ win2_0.index t (0 : Fin 3) = t.val / 2 ∧ win2_0.index t (1 : Fin 3) = t.val % 2 ∧ win2_0.index t (2 : Fin 3) = 0
    ∧ win2_1.index t (0 : Fin 3) = t.val / 2 ∧ win2_1.index t (1 : Fin 3) = 0 ∧ win2_1.index t (2 : Fin 3) = 0
    ∧ win2_2.index t (0 : Fin 2) = 0 ∧ win2_2.index t (1 : Fin 2) = 0 :=
  (by decide +kernel : ∀ t : Fin grid2.N, _)

/-! ## The output as one function of the arrays the region finds -/

/-- Entry (n, s, f) of the output: query row (n, s) against column f of batch n's mixing matrix, scaled, plus the
    bias at f. -/
def G (q : S4x2048x1024.Idx → EReal) (mx : S4x1024x1024.Idx → EReal) (bias : S1x1024.Idx → EReal) :
    S4x2048x1024.Idx → EReal := fun i =>
  (∑ e : Fin 1024, q (ix3 (i 0) (i 1) e) * mx (ix3 (i 0) e (i 2))) * Ideal.ofBits .f32 0x3E000000#32
    + bias (ix2 (0 : Fin 1) (i 2))

/-- The payload at entry y of its block is G at entry i of the array, once the three blocks read the arrays where i
    says. -/
theorem pay_eq_G (x0 : Vec Ideal S1x1024x1024 .bf16) (x1 : Vec Ideal S1x1024x1024 .f32) (x2 : Vec Ideal S1x1024 .f32)
    (q : S4x2048x1024.Idx → EReal) (mx : S4x1024x1024.Idx → EReal) (bias : S1x1024.Idx → EReal)
    (y : S1x1024x1024.Idx) (i : S4x2048x1024.Idx)
    (h0 : ∀ e : Fin 1024, x0 (ix3 (0 : Fin 1) (y 1) e) = q (ix3 (i 0) (i 1) e))
    (h1 : ∀ e : Fin 1024, x1 (ix3 (0 : Fin 1) e (y 2)) = mx (ix3 (i 0) e (i 2)))
    (h2 : x2 (ix2 (0 : Fin 1) (y 2)) = bias (ix2 (0 : Fin 1) (i 2))) :
    k2_pay1 (F := Ideal) x0 x1 x2 y = G q mx bias i := by
  refine (congrArg (k2_pay1 (F := Ideal) x0 x1 x2) (eq_ix3 y)).trans ((pay_at x0 x1 x2 (y 0) (y 1) (y 2)).trans ?_)
  unfold G
  refine congrArg₂ (· + ·) (congrArg₂ (· * ·) (Finset.sum_congr rfl fun e _ => ?_) rfl) h2
  rw [h0 e, h1 e]

variable (V : (c : Dev nD) → (b : Ref sig .tc) → Buf (Elt Ideal) ((c : Thread nD τ).loc b))

/-! ## Each input block as entries of its array -/

/-- The query block at point t: entry (0, r, e) is the array's entry (t / 2, 1024 (t % 2) + r, e). -/
theorem queries_at (c : Dev nD) (t : Fin cfg2.N) (x : S1x1024x1024.Idx) (k : S4x2048x1024.Idx)
    (hk0 : (k 0).val = t.val / 2) (hk1 : (k 1).val = t.val % 2 * 1024 + (x 1).val) (hk2 : (k 2).val = (x 2).val) :
    (iblk2 V c 0 t : Vec Ideal S1x1024x1024 .bf16) x = (V c main_v5 : S4x2048x1024.Idx → EReal) k := by
  obtain ⟨-, -, -, e0, e1, e2, -⟩ := idx_facts t
  have hx : (x 0).val < 1 := (x 0).isLt
  unfold iblk2
  rw [View.read_apply]
  show V c main_v5 _ = V c main_v5 _
  congr 1
  funext a
  apply Fin.ext
  match a with
  | ⟨0, _⟩ => show win2_0.index t (0 : Fin 3) * 1 + 1 * (x 0).val = (k 0).val; omega
  | ⟨1, _⟩ => show win2_0.index t (1 : Fin 3) * 1024 + 1 * (x 1).val = (k 1).val; omega
  | ⟨2, _⟩ => show win2_0.index t (2 : Fin 3) * 1024 + 1 * (x 2).val = (k 2).val; omega

/-- The mixing block at point t: entry (0, e, f) is the array's entry (t / 2, e, f). -/
theorem mixing_at (c : Dev nD) (t : Fin cfg2.N) (x : S1x1024x1024.Idx) (k : S4x1024x1024.Idx)
    (hk0 : (k 0).val = t.val / 2) (hk1 : (k 1).val = (x 1).val) (hk2 : (k 2).val = (x 2).val) :
    (iblk2 V c 1 t : Vec Ideal S1x1024x1024 .f32) x = (V c main_v8 : S4x1024x1024.Idx → EReal) k := by
  obtain ⟨-, -, -, -, -, -, e0, e1, e2, -⟩ := idx_facts t
  have hx : (x 0).val < 1 := (x 0).isLt
  unfold iblk2
  rw [View.read_apply]
  show V c main_v8 _ = V c main_v8 _
  congr 1
  funext a
  apply Fin.ext
  match a with
  | ⟨0, _⟩ => show win2_1.index t (0 : Fin 3) * 1 + 1 * (x 0).val = (k 0).val; omega
  | ⟨1, _⟩ => show win2_1.index t (1 : Fin 3) * 1024 + 1 * (x 1).val = (k 1).val; omega
  | ⟨2, _⟩ => show win2_1.index t (2 : Fin 3) * 1024 + 1 * (x 2).val = (k 2).val; omega

/-- The bias block at any point is the bias array. -/
theorem bias_at (c : Dev nD) (t : Fin cfg2.N) (x : S1x1024.Idx) (k : S1x1024.Idx)
    (hk0 : (k 0).val = (x 0).val) (hk1 : (k 1).val = (x 1).val) :
    (iblk2 V c 2 t : Vec Ideal S1x1024 .f32) x = (V c main_v9 : S1x1024.Idx → EReal) k := by
  obtain ⟨-, -, -, -, -, -, -, -, -, e0, e1⟩ := idx_facts t
  unfold iblk2
  rw [View.read_apply]
  show V c main_v9 _ = V c main_v9 _
  congr 1
  funext a
  apply Fin.ext
  match a with
  | ⟨0, _⟩ => show win2_2.index t (0 : Fin 2) * 1 + 1 * (x 0).val = (k 0).val; omega
  | ⟨1, _⟩ => show win2_2.index t (1 : Fin 2) * 1024 + 1 * (x 1).val = (k 1).val; omega

/-! ## What each point writes back -/

/-- Point t writes back block t of G of the arrays the region finds. -/
theorem flushed_eq (c : Dev nD) (t : Fin cfg2.N) :
    (dat2 (F := Ideal) V c).flushed 3 t
      = ((cfg2.win 3).blk t).view.read (Elt Ideal) (G (V c main_v5) (V c main_v8) (V c main_v9)) := by
  show (cfg2.win 3).cut (grid2.coords t) ((dat2 V c).after 3 t) = _
  rw [after2_3]
  unfold out2_3
  rw [View.canon_unit_zero hz3]
  simp only [View.ld_unit_zero (S := S1x1024x1024) hz3, View.ld_unit_zero (S := S1x1024) hz2]
  obtain ⟨o0, o1, o2, -⟩ := idx_facts t
  funext y
  show k2_pay1 (F := Ideal) (iblk2 V c 0 t) (iblk2 V c 1 t) (iblk2 V c 2 t) y
    = G (V c main_v5) (V c main_v8) (V c main_v9) (((cfg2.win 3).blk t).view.emb y)
  have hy : (y 0).val < 1 := (y 0).isLt
  have b0 : ((((cfg2.win 3).blk t).view.emb y) 0).val = t.val / 2 := by
    show win2_3.index t (0 : Fin 3) * 1 + 1 * (y 0).val = _; omega
  have b1 : ((((cfg2.win 3).blk t).view.emb y) 1).val = t.val % 2 * 1024 + (y 1).val := by
    show win2_3.index t (1 : Fin 3) * 1024 + 1 * (y 1).val = _; omega
  have b2 : ((((cfg2.win 3).blk t).view.emb y) 2).val = (y 2).val := by
    show win2_3.index t (2 : Fin 3) * 1024 + 1 * (y 2).val = _; omega
  refine pay_eq_G _ _ _ _ _ _ y _ (fun e => ?_) (fun e => ?_) ?_
  · exact queries_at V c t _ _ b0 b1 rfl
  · exact mixing_at V c t _ _ b0 rfl b2
  · exact bias_at V c t _ _ rfl b2

/-! ## The blocks tile the output -/

/-- An entry of the array is in point t's block iff each coordinate is in the block's range on its axis. -/
theorem mem_blk (t : Fin cfg2.N) (i : S4x2048x1024.Idx) :
    i ∈ ((cfg2.win 3).blk t).view.set ↔ ∀ a : Fin 3, win2_3.index t a * S1x1024x1024.size a ≤ (i a).val
      ∧ (i a).val < win2_3.index t a * S1x1024x1024.size a + S1x1024x1024.size a := by
  show i ∈ ((View.whole main_v10).slice (win2_3.rect t)).set ↔ _
  rw [View.set_slice_whole, Rect.mem_set_unit]
  exact Iff.rfl

/-- Entry (n, s, f) is in the block of point 2 n + s / 1024, and every point writes its block back. -/
theorem cover (i : S4x2048x1024.Idx) :
    ∃ t : Fin cfg2.N, (cfg2.win 3).flush t = true ∧ i ∈ ((cfg2.win 3).blk t).view.set := by
  have h0 : (i 0).val < 4 := (i 0).isLt
  have h1 : (i 1).val < 2048 := (i 1).isLt
  have h2 : (i 2).val < 1024 := (i 2).isLt
  have ht : (i 0).val * 2 + (i 1).val / 1024 < grid2.N := by rw [N_2]; omega
  obtain ⟨o0, o1, o2, -⟩ := idx_facts ⟨(i 0).val * 2 + (i 1).val / 1024, ht⟩
  have tv : (⟨(i 0).val * 2 + (i 1).val / 1024, ht⟩ : Fin cfg2.N).val = (i 0).val * 2 + (i 1).val / 1024 := rfl
  refine ⟨⟨(i 0).val * 2 + (i 1).val / 1024, ht⟩, flush2_3 _, ?_⟩
  rw [mem_blk]
  intro a
  match a with
  | ⟨0, _⟩ =>
    show win2_3.index _ (0 : Fin 3) * 1 ≤ (i 0).val ∧ (i 0).val < win2_3.index _ (0 : Fin 3) * 1 + 1
    omega
  | ⟨1, _⟩ =>
    show win2_3.index _ (1 : Fin 3) * 1024 ≤ (i 1).val ∧ (i 1).val < win2_3.index _ (1 : Fin 3) * 1024 + 1024
    omega
  | ⟨2, _⟩ =>
    show win2_3.index _ (2 : Fin 3) * 1024 ≤ (i 2).val ∧ (i 2).val < win2_3.index _ (2 : Fin 3) * 1024 + 1024
    omega

/-! ## The output array after the region -/

/-- After the region the output array holds G of the arrays the region found. -/
theorem final (c : Dev nD) :
    (dat2 (F := Ideal) V c).arrAt 3 cfg2.N = G (V c main_v5) (V c main_v8) (V c main_v9) :=
  (dat2 (F := Ideal) V c).arrAt_eq_of_cover 3 (G (V c main_v5) (V c main_v8) (V c main_v9))
    (fun t _ => flushed_eq V c t) cover

/-- The three arrays the region reads, as functions on their literal index types. -/
abbrev queries (c : Dev nD) : S4x2048x1024.Idx → EReal := V c main_v5
abbrev mixing (c : Dev nD) : S4x1024x1024.Idx → EReal := V c main_v8
abbrev biasRow (c : Dev nD) : S1x1024.Idx → EReal := V c main_v9

/-- The output at coordinates. -/
theorem output_at (c : Dev nD) (n : Fin 4) (s : Fin 2048) (f : Fin 1024) :
    (dat2 (F := Ideal) V c).arrAt 3 cfg2.N (ix3 n s f)
      = (∑ e : Fin 1024, queries V c (ix3 n s e) * mixing V c (ix3 n e f)) * Ideal.ofBits .f32 0x3E000000#32
        + biasRow V c (ix2 (0 : Fin 1) f) :=
  congrFun (final V c) (ix3 n s f)

/-- The output at coordinates, over any names for the three arrays the region reads. -/
theorem output_at_of (c : Dev nD) (n : Fin 4) (s : Fin 2048) (f : Fin 1024)
    (Q : S4x2048x1024.Idx → EReal) (M : S4x1024x1024.Idx → EReal) (B : S1x1024.Idx → EReal)
    (hQ : V c main_v5 = Q) (hM : V c main_v8 = M) (hB : V c main_v9 = B) :
    (dat2 (F := Ideal) V c).arrAt 3 cfg2.N (ix3 n s f)
      = (∑ e : Fin 1024, Q (ix3 n s e) * M (ix3 n e f)) * Ideal.ofBits .f32 0x3E000000#32 + B (ix2 (0 : Fin 1) f) := by
  subst hQ hM hB
  exact congrFun (final V c) (ix3 n s f)

end Cert.KernelIdeal.RegionOutput

end
-- ==== Proof.KernelValue.lean ====
/-
  The idealized kernel program's result as one function of its nine arguments: the kernel's arrangement of the
  bilinear attention. The third region's array is read through the second region's, the second through the first's
  three projections, and each host reshape between them only renames indices: entry (n, s, f) of the result is
  (sum over e of q(n, s, e) * mix(n, e, f)) * 1/8 + bo(f) with q, k, v the projections of the launched arrays.
-/
import proofs.«162765_j59133109731524_2_alg».proof.Proof.KernelBoundaries
import proofs.«162765_j59133109731524_2_alg».proof.Proof.RegionMix
import proofs.«162765_j59133109731524_2_alg».proof.Proof.RegionOutput
import proofs.«162765_j59133109731524_2_alg».proof.Proof.AttentionSpec

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The queries, keys and values arrays as whole functions of the launched arrays. -/
def projArr (x : Cert.Attention.Arr3) (W : Cert.Attention.Arr2) (b : Cert.Attention.Arr1) : S4x2048x1024.Idx → EReal :=
  fun i => Cert.Attention.proj x W b (i 0) (i 1) (i 2)

/-- The mixing matrices as one whole function of the launched arrays. -/
def mixArr (x : Cert.Attention.Arr3) (Wk : Cert.Attention.Arr2) (bk : Cert.Attention.Arr1) (Wv : Cert.Attention.Arr2) (bv : Cert.Attention.Arr1)
    (Wo : Cert.Attention.Arr2) : S4x1024x1024.Idx → EReal :=
  fun i => Cert.Attention.mix x Wk bk Wv bv Wo (i 0) (i 1) (i 2)

/-- The output bias as a row. -/
def biasRow (b : Cert.Attention.Arr1) : S1x1024.Idx → EReal := fun i => b (ix1 (i 1))

theorem queries_eq (c : Dev nD) : V3 m ρ c main_v5 = projArr (m ((c : Thread nD τ).loc main_arg0)) (m ((c : Thread nD τ).loc main_arg1)) (m ((c : Thread nD τ).loc main_arg2)) :=
  funext fun i => by
    obtain ⟨n, s, e, rfl⟩ : ∃ (n : Fin 4) (s : Fin 2048) (e : Fin 1024), i = ix3 n s e := ⟨i 0, i 1, i 2, eq_ix3 i⟩
    exact Boundaries.queries_at m ρ c n s e

theorem keys_eq (c : Dev nD) : V3 m ρ c main_v6 = projArr (m ((c : Thread nD τ).loc main_arg0)) (m ((c : Thread nD τ).loc main_arg3)) (m ((c : Thread nD τ).loc main_arg4)) :=
  funext fun i => by
    obtain ⟨n, s, e, rfl⟩ : ∃ (n : Fin 4) (s : Fin 2048) (e : Fin 1024), i = ix3 n s e := ⟨i 0, i 1, i 2, eq_ix3 i⟩
    exact Boundaries.keys_at m ρ c n s e

theorem values_eq (c : Dev nD) : V3 m ρ c main_v7 = projArr (m ((c : Thread nD τ).loc main_arg0)) (m ((c : Thread nD τ).loc main_arg5)) (m ((c : Thread nD τ).loc main_arg6)) :=
  funext fun i => by
    obtain ⟨n, s, e, rfl⟩ : ∃ (n : Fin 4) (s : Fin 2048) (e : Fin 1024), i = ix3 n s e := ⟨i 0, i 1, i 2, eq_ix3 i⟩
    exact Boundaries.values_at m ρ c n s e

/-- The second region's array is the keys against the values over the sequence axis, carried through Wo. -/
theorem mix_eq (c : Dev nD) : (dat1 (F := Ideal) (V3 m ρ) c).arrAt 3 cfg1.N = mixArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  funext fun i => by
    obtain ⟨n, e, f, rfl⟩ : ∃ (n : Fin 4) (e f : Fin 1024), i = ix3 n e f := ⟨i 0, i 1, i 2, eq_ix3 i⟩
    refine (RegionMix.mix_at_of (V3 m ρ) c n e f _ _ _ (keys_eq m ρ c) (values_eq m ρ c) (Boundaries.main_arg7_V3 m ρ c)).trans ?_
    rfl

theorem bias_eq (c : Dev nD) : V5 m ρ c main_v9 = biasRow (m ((c : Thread nD τ).loc main_arg8)) :=
  funext fun i => by
    obtain ⟨u, f, rfl⟩ : ∃ (u : Fin 1) (f : Fin 1024), i = ix2 u f := ⟨i 0, i 1, eq_ix2 i⟩
    obtain rfl : u = 0 := Subsingleton.elim _ _
    exact Boundaries.main_v9_at m ρ c f

/-- The result buffer, entry by entry, is the kernel's arrangement of the attention. -/
theorem result_at (c : Dev nD) (n : Fin 4) (s : Fin 2048) (f : Fin 1024) :
    W6 m ρ c (Proc.devRef .tc main_v10) (ix3 n s f)
      = Cert.Attention.kernelAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n s f := by
  rw [Boundaries.main_v10_W6 m ρ c]
  refine (RegionOutput.output_at_of (V5 m ρ) c n s f _ _ _
    ((Boundaries.main_v5_V5 m ρ c).trans (queries_eq m ρ c))
    ((Boundaries.main_v8_V5 m ρ c).trans (mix_eq m ρ c))
    (bias_eq m ρ c)).trans ?_
  rfl

/-- The result buffer is the kernel's arrangement, as one array. -/
theorem result_eq (c : Dev nD) :
    W6 m ρ c (Proc.devRef .tc main_v10)
      = Cert.Attention.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  funext fun i => by
    obtain ⟨n, s, f, rfl⟩ : ∃ (n : Fin 4) (s : Fin 2048) (f : Fin 1024), i = ix3 n s f := ⟨i 0, i 1, i 2, eq_ix3 i⟩
    exact result_at m ρ c n s f

end Cert.KernelIdeal.Result

end
-- ==== Proof.lean ====
/-
  Bilinear (softmax-free) attention over f32[4, 2048, 1024]: a three-stage kernel against the plain formula.

  The kernel projects the input to queries, keys and values (one region, 512 rows per grid point), forms for each
  batch the matrix (K^T V) Wo^T (one region, one batch per point: the sequence axis is contracted first, so the
  2048 x 2048 score matrix never exists), and multiplies the queries by it, scales by 1/8 and adds the output bias
  (one region, 1024 rows per point). The reference forms the scaled scores Q K^T / 8, multiplies by V, projects by
  Wo and adds the bias. At the ideal instance every change of float format is the identity and every product is an
  exact sum, so both results are, entry by entry,
      (1/8) * (sum over e, t, g of q(n,s,e) * k(n,t,e) * v(n,t,g) * Wo(f,g)) + bo(f),
  arranged in two orders. Moving the factors across the sums is sound because every input is finite (the
  precondition), hence every projection is a real number: on the extended reals distributivity fails at infinities.

  The modules: AttentionSpec (the two arrangements), AttentionLaw (they agree on real inputs), FiniteInputs (the
  precondition makes every input real), ReferenceValue (the reference's term is its arrangement), KernelProducts
  (the four matrix products at an index), RegionProject / RegionMix / RegionOutput (each region's output array as a
  function of what the region finds), KernelBoundaries (what each region finds), KernelRun (the program's run with
  the result named), KernelValue (the result is the kernel's arrangement of the launched arrays).
-/
import proofs.«162765_j59133109731524_2_alg».proof.Defs
import proofs.«162765_j59133109731524_2_alg».proof.Proof.Gen.Kernel
import proofs.«162765_j59133109731524_2_alg».proof.Proof.Gen.Kernel.Skeleton
import proofs.«162765_j59133109731524_2_alg».proof.Proof.Gen.Kernel.Launch
import proofs.«162765_j59133109731524_2_alg».proof.Proof.Gen.Kernel.Points
import proofs.«162765_j59133109731524_2_alg».proof.Proof.Gen.Kernel.Frame
import proofs.«162765_j59133109731524_2_alg».proof.Proof.Gen.KernelIdeal
import proofs.«162765_j59133109731524_2_alg».proof.Proof.Gen.KernelIdeal.Skeleton
import proofs.«162765_j59133109731524_2_alg».proof.Proof.Gen.KernelIdeal.Launch
import proofs.«162765_j59133109731524_2_alg».proof.Proof.Gen.KernelIdeal.Points
import proofs.«162765_j59133109731524_2_alg».proof.Proof.Gen.KernelIdeal.Frame
import proofs.«162765_j59133109731524_2_alg».proof.Proof.Gen.ReferenceIdeal
import proofs.«162765_j59133109731524_2_alg».proof.Proof.Gen.Pre_finite_inputs
import proofs.«162765_j59133109731524_2_alg».proof.Proof.Gen.ReferenceIdeal.Run
import proofs.«162765_j59133109731524_2_alg».proof.Proof.Gen.ReferenceIdeal.Read
import proofs.«162765_j59133109731524_2_alg».proof.Proof.AttentionLaw
import proofs.«162765_j59133109731524_2_alg».proof.Proof.FiniteInputs
import proofs.«162765_j59133109731524_2_alg».proof.Proof.ReferenceValue
import proofs.«162765_j59133109731524_2_alg».proof.Proof.KernelRun
import proofs.«162765_j59133109731524_2_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- From memories agreeing on the nine inputs, all finite, the kernel's result is the kernel's arrangement of the
    attention and the reference's result the reference's arrangement, and the two arrangements agree on real inputs. -/
theorem algebraic : Cert.algebraic_KernelIdeal_ReferenceIdeal := by
  intro m ρ m' ρ' hpre hagree
  refine ⟨fun c => Cert.Attention.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m ρ c), (h c).2⟩)
      (Cert.KernelIdeal.Whole.run_named (F := Ideal) m ρ)
  · refine (θ_run Cert.ReferenceIdeal.defs _ _).mono (fun r h c => ⟨?_, (h c).2⟩)
      (Cert.ReferenceIdeal.Value.run (F := Ideal) m' ρ')
    obtain ⟨r0, r1, r2, r3, r4, r5, r6, r7, r8⟩ := Cert.Attention.isReal_of_pre _ _ _ _ _ _ _ _ _ (hpre c)
    obtain ⟨a0, a1, a2, a3, a4, a5, a6, a7, a8⟩ := hagree c
    rw [(h c).1, Cert.ReferenceIdeal.Read.val_main_v19_eq, Cert.ReferenceIdeal.RefValue.val_eq_referenceOut,
      a0, a1, a2, a3, a4, a5, a6, a7, a8]
    exact (Cert.Attention.kernelOut_eq_referenceOut _ _ _ _ _ _ _ _ _ r0 r1 r2 r3 r4 r5 r6 r7 r8).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
